-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x4096x1024 .f32) (main_arg1 : FVec F S1024x1024 .f32) (main_arg2 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x4096x1024 : Shape := ⟨3, ![4, 4096, 1024]⟩
abbrev S1024x1024 : Shape := ⟨2, ![1024, 1024]⟩
abbrev S1x1024x1024 : Shape := ⟨3, ![1, 1024, 1024]⟩
abbrev S1x512x1024 : Shape := ⟨3, ![1, 512, 1024]⟩
abbrev S512x1 : Shape := ⟨2, ![512, 1]⟩
abbrev S512x1024 : Shape := ⟨2, ![512, 1024]⟩
abbrev S512 : Shape := ⟨1, ![512]⟩

abbrev nBuf : Space → Nat
  | .hbm => 8
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S4x4096x1024, .bf16⟩
  | .hbm, ⟨4, _⟩ => ⟨S1024x1024, .bf16⟩
  | .hbm, ⟨5, _⟩ => ⟨S1024x1024, .bf16⟩
  | .hbm, ⟨6, _⟩ => ⟨S4x4096x1024, .bf16⟩
  | .hbm, ⟨7, _⟩ => ⟨S4x4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1024x1024, .bf16⟩
  | .local _ .vmem, ⟨10, _⟩ => ⟨S1x512x1024, .f32⟩
  | .local _ .vmem, ⟨11, _⟩ => ⟨S1x512x1024, .f32⟩
  | .local _ .vmem, ⟨12, _⟩ => ⟨S512x1, .f32⟩
  | .local _ .vmem, ⟨13, _⟩ => ⟨S512x1, .f32⟩
  | .local _ .vmem, ⟨14, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc1_scratch1 : Ref sig .tc := ⟨.vmem, 13, rfl⟩
abbrev cc1_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![4, 8, 4], ![false, false, false]⟩

def k1_cond2 (i : grid1.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_27 : BitVec 32 := 0#32
  let v44 : BitVec 1 := Scalar.cmpi .ne v43 c0_i32_27
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  dot_S1024x1024_S1024x1024_S1024x1024_1_0_0_1_n_n_wf : DotDims.WF S1024x1024 S1024x1024 S1024x1024 [1] [0] [0] [1] [] []
  dot_S512x1024_S1024x1024_S512x1024_1_1_0_0_n_n_wf : DotDims.WF S512x1024 S1024x1024 S512x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .bf16 = 32 ∨ (Rect.block (s := S4x4096x1024) S1x1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x4096x1024.size a
  hwx0_2 : ∀ i : grid0.Coords, EltTy.bits .bf16 = 32 ∨ (Rect.block (s := S4x4096x1024) S1x1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x4096x1024.size a
  hwx1_0 : ∀ i : grid1.Coords, EltTy.bits .bf16 = 32 ∨ (Rect.block (s := S4x4096x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x4096x1024.size a
  hwx1_1 : ∀ i : grid1.Coords, EltTy.bits .bf16 = 32 ∨ (Rect.block (s := S4x4096x1024) S1x1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x4096x1024.size a
  hwx1_3 : ∀ i : grid1.Coords, EltTy.bits .f32 = 32 ∨ (Rect.block (s := S4x4096x1024) S1x512x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S4x4096x1024, .f32⟩
  | .hbm, ⟨4, _⟩ => ⟨S4x4096x4096, .f32⟩
  | .hbm, ⟨5, _⟩ => ⟨S_, .f32⟩
  | .hbm, ⟨6, _⟩ => ⟨S4x4096x4096, .f32⟩
  | .hbm, ⟨7, _⟩ => ⟨S4x4096x4096, .f32⟩
  | .hbm, ⟨8, _⟩ => ⟨S_, .f32⟩
  | .hbm, ⟨9, _⟩ => ⟨S4x4096, .f32⟩
  | .hbm, ⟨10, _⟩ => ⟨S_, .f32⟩
  | .hbm, ⟨11, _⟩ => ⟨S4x4096, .f32⟩
  | .hbm, ⟨12, _⟩ => ⟨S4x4096, .f32⟩
  | .hbm, ⟨13, _⟩ => ⟨S4x4096x1, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S4x4096x4096, .f32⟩
  | .hbm, ⟨21, _⟩ => ⟨S4x4096x4096, .f32⟩
  | .hbm, ⟨22, _⟩ => ⟨S4x4096x1024, .f32⟩
  | .hbm, ⟨23, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x1024_S4x4096x1024_2_0_01_1_n_n_wf : DotDims.WF S4x4096x1024 S1024x1024 S4x4096x1024 [2] [0] [0, 1] [1] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.KI.R0.lean ====
import proofs.«165870_j3324304687449_2_alg».proof.Proof.Gen.KernelIdeal.Launch
import proofs.«165870_j3324304687449_2_alg».proof.Proof.Gen.KernelIdeal.Skeleton
import proofs.«165870_j3324304687449_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when region 0 is entered: the parameter its half is stated at
variable (V : (c : Dev nD) → (b : Ref sig .tc) → Buf (Elt F) ((c : Thread nD τ).loc b))

/-! # Region 0 of @main: the projection call (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: an unfetched input's block index has
    not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight matrix, fetched at the first point only) likewise: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x1024x1024 := Rect.unit (s := S1x1024x1024) ![0, 0, 0] S1x1024x1024.size inb_S1x1024x1024_S1x1024x1024_0_0_0
abbrev r0_1 : Rect S1024x1024 := Rect.unit (s := S1024x1024) ![0, 0] S1024x1024.size inb_S1024x1024_S1024x1024_0_0

/-! ## What the body leaves in the output window's buffer -/

/-- Window 2's staging buffer after the body, from the input windows' blocks: its one whole-block store, whose
    payload is the product of the two loaded blocks, rounded. -/
def out0_2 (x0 : Vec F S1x1024x1024 .bf16) (x1 : Vec F S1024x1024 .bf16) : Vec F S1x1024x1024 .bf16 :=
  View.canon [⟨r0_0, k0_pay1 (View.ld x0 r0_0) (View.ld x1 r0_1)⟩]

/-- The store tiles the buffer, so it covers it. -/
theorem cover0_2 (p0 : Vec F S1x1024x1024 .bf16) (y : S1x1024x1024.Idx) :
    ∃ pc ∈ ([⟨r0_0, p0⟩] : List (View.Piece (Elt F) S1x1024x1024 .bf16)), y ∈ pc.1.set :=
  View.cover_of_tiled [⟨r0_0, p0⟩] S1x1024x1024.size (by rfl) y

/-! ## The body's triple -/

set_option maxHeartbeats 1000000 in
/-- The kernel body on whole staging memrefs, the inputs' at read contents `x0`, `x1` and the output's at anything,
    runs to the continuation holding the inputs' as they were and the output's at `out0_2` of the inputs'. -/
theorem sound_kernel0 (c : Dev nD) (E : Set ℕ) (i : grid0.Coords)
    (arg0 : Memref sig .tc .vmem S1x1024x1024 .bf16) (harg0 : arg0.IsWhole)
    (arg1 : Memref sig .tc .vmem S1024x1024 .bf16) (harg1 : arg1.IsWhole)
    (arg2 : Memref sig .tc .vmem S1x1024x1024 .bf16) (harg2 : arg2.IsWhole)
    (x0 : Vec F S1x1024x1024 .bf16) (x1 : Vec F S1024x1024 .bf16) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__proj_kernel i arg0 harg0 arg1 harg1 arg2 harg2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.Runs.lean ====
import proofs.«165870_j3324304687449_2_alg».proof.Proof.Gen.KernelIdeal.Launch
import proofs.«165870_j3324304687449_2_alg».proof.Proof.Gen.KernelIdeal.Skeleton
import proofs.«165870_j3324304687449_2_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the region-entry contents and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the region-entry contents and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the region-entry contents and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if`: grid coordinate 2 is 0 (the scalar chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 4): coordinate 2 runs fastest over a 4 × 8 × 4 grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if`: grid coordinate 2 is 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The three inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where coordinate 2 is not 3 the output window is idle (nothing is stored into it) and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- Where coordinate 2 is 3 the output window is live: the body stores its block. -/
theorem liveAt1_3_C : ∀ t : Fin cfg1.N, ¬cond1_0 (grid1.coords t) → cond1_1 (grid1.coords t) → cfg1.idle 3 (grid1.coords t) = false := by decide +kernel

/-! ## The staging and scratch memrefs -/

/-- One staging buffer of the output window, through which its contents are stated (the choice does not matter). -/
abbrev VO1_3 : View sig .tc .vmem S1x512x1024 .f32 := (Memref.whole cc1_stg3_0 : Memref sig .tc .vmem S1x512x1024 .f32).view
/-- Each window's current staging memref at point `t`, as the pipeline passes it, and its wholeness. -/
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
/-- The scratch operands: the running maximum, the running denominator, the running numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view

/-- The scoped buffers of the core that are neither staging buffers of this region nor its scratch: the other region's staging buffers, each at some contents. -/
abbrev scOther1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region's class invariant with the three scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.KI.R1.RunA.lean ====
import proofs.«165870_j3324304687449_2_alg».proof.Proof.KI.R1.Runs

set_option maxRecDepth 16384

noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- The whole body in case A: on whole staging memrefs, the inputs at their blocks, the output (idle here) at contents handed back untouched, the three scratch buffers at anything (the case stores each whole before reading it),
    the body runs to the continuation holding the inputs as they were and each scratch buffer with its pieces written. The pieces are the witness. -/
noncomputable def kernelRun1_A (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1024x1024 .bf16) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.R1.RunB.lean ====
import proofs.«165870_j3324304687449_2_alg».proof.Proof.KI.R1.RunA

set_option maxRecDepth 16384

noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- The whole body in case B: on whole staging memrefs, the inputs at their blocks, the output (idle here) at contents handed back untouched, the three scratch buffers at what the point before left,
    the body runs to the continuation holding the inputs as they were and each scratch buffer with its pieces written. The pieces are the witness. -/
noncomputable def kernelRun1_B (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.R1.RunC.lean ====
import proofs.«165870_j3324304687449_2_alg».proof.Proof.KI.R1.RunB

set_option maxRecDepth 16384

noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- The whole body in case C: on whole staging memrefs, the inputs at their blocks, the output at anything, the three scratch buffers at what the point before left,
    the body runs to the continuation holding the inputs as they were, the output with its pieces written and each scratch buffer with its pieces written. The pieces are the witness. -/
noncomputable def kernelRun1_C (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.R1.lean ====
import proofs.«165870_j3324304687449_2_alg».proof.Proof.KI.R1.RunC

set_option maxRecDepth 16384

noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- What case A leaves in the output window's staging buffer: its pieces read back over junk (none here: a placeholder nothing consults, the window being idle and not written back at the case's points). -/
def out1_A_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1024x1024 .bf16) : Vec F S1x512x1024 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- Case A's pieces for scratch 0 cover it. -/
theorem scover1_A_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1024x1024 .bf16) (y : S512x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S512x1.size (by sl_kernel_rfl) y

/-- What case A leaves in scratch 0: its pieces read back over junk. -/
def sout1_A_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1024x1024 .bf16) : Vec F S512x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- Case A's pieces for scratch 1 cover it. -/
theorem scover1_A_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1024x1024 .bf16) (y : S512x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S512x1.size (by sl_kernel_rfl) y

/-- What case A leaves in scratch 1: its pieces read back over junk. -/
def sout1_A_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1024x1024 .bf16) : Vec F S512x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- Case A's pieces for scratch 2 cover it. -/
theorem scover1_A_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1024x1024 .bf16) (y : S512x1024.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S512x1024.size (by sl_kernel_rfl) y

/-- What case A leaves in scratch 2: its pieces read back over junk. -/
def sout1_A_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1024x1024 .bf16) : Vec F S512x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- What case B leaves in the output window's staging buffer: its pieces read back over junk (none here: a placeholder nothing consults, the window being idle and not written back at the case's points). -/
def out1_B_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) : Vec F S1x512x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- Case B's pieces for scratch 0 cover it. -/
theorem scover1_B_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S512x1.size (by sl_kernel_rfl) y

/-- What case B leaves in scratch 0: its pieces read back over junk. -/
def sout1_B_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- Case B's pieces for scratch 1 cover it. -/
theorem scover1_B_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S512x1.size (by sl_kernel_rfl) y

/-- What case B leaves in scratch 1: its pieces read back over junk. -/
def sout1_B_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- Case B's pieces for scratch 2 cover it. -/
theorem scover1_B_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) (y : S512x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S512x1024.size (by sl_kernel_rfl) y

/-- What case B leaves in scratch 2: its pieces read back over junk. -/
def sout1_B_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- Case C's pieces for the output window tile its block (one store of the whole block), so they cover it. -/
theorem cover1_C_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) (y : S1x512x1024.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x512x1024.size (by sl_kernel_rfl) y

/-- What case C leaves in the output window's staging buffer: its pieces read back over junk. -/
def out1_C_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) : Vec F S1x512x1024 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-- Case C's pieces for scratch 0 cover it. -/
theorem scover1_C_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) (y : S512x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S512x1.size (by sl_kernel_rfl) y

/-- What case C leaves in scratch 0: its pieces read back over junk. -/
def sout1_C_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- Case C's pieces for scratch 1 cover it. -/
theorem scover1_C_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) (y : S512x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S512x1.size (by sl_kernel_rfl) y

/-- What case C leaves in scratch 1: its pieces read back over junk. -/
def sout1_C_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- Case C's pieces for scratch 2 cover it. -/
theorem scover1_C_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) (y : S512x1024.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S512x1024.size (by sl_kernel_rfl) y

/-- What case C leaves in scratch 2: its pieces read back over junk. -/
def sout1_C_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

/-! ## What the output window and the scratch buffers hold after each point -/

/-- THE ACCUMULATION. What the output window's staging buffer and the three scratch buffers (running maximum, running denominator, running numerator)
    hold after the body at position `n`: the case the closed forms select at `n`, run at the point's memrefs and input blocks, the scratch buffers at what
    position `n - 1` left. An assignment of the conditions no point meets is no case. -/
def outsAt1 (c : Dev nD) : (n : ℕ) → n < cfg1.N → Vec F S1x512x1024 .f32 × Vec F S512x1 .f32 × Vec F S512x1 .f32 × Vec F S512x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no staging buffer of this region at anything);
    afterwards the same with the three scratch buffers at what the point before left in them, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

/-- After point `n`: the scratch buffers at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of this region's pipeline on core `c`: the arrays as the region finds them (`V`); after the body at point `t` each input's buffer
    at its block and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the closed forms say which case the point is in; the invariant hands the body the
    three scratch buffers at what the point before left (at anything at the first point) and takes them back at this point's contents, the pieces
    covering each; the output window is stored whole where coordinate 2 is 3 and handed back untouched elsewhere; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨HA, HB, HC, HD, HE, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HA HB HC HD HE HS0 HS1 HS2 Hg]
        · isplitr [Hg]
          · isplitl [HA]; · iexact HA
            isplitl [HB]; · iexact HB
            isplitl [HC]; · iexact HC
            isplitl [HD]; · iexact HD
            isplitl [HE]; · iexact HE
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HA, HB, HC, HD, HE, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HA HB HC HD HE HS0 HS1 HS2 Hg]
        · isplitr [Hg]
          · isplitl [HA]; · iexact HA
            isplitl [HB]; · iexact HB
            isplitl [HC]; · iexact HC
            isplitl [HD]; · iexact HD
            isplitl [HE]; · iexact HE
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      by_cases hz : t.val = 0
      · exfalso; omega
      · rw [PhiS1_castSucc V c t, PhiS1_pos V c _ _ hz]
        iintro ⟨⟨⟨HA, HB, HC, HD, HE, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HA HB HC HD HE HS0 HS1 HS2 Hg]
        · isplitr [Hg]
          · isplitl [HA]; · iexact HA
            isplitl [HB]; · iexact HB
            isplitl [HC]; · iexact HC
            isplitl [HD]; · iexact HD
            isplitl [HE]; · iexact HE
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨HA, HB, HC, HD, HE, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HA HB HC HD HE HS0 HS1 HS2 Hg]
        · isplitr [Hg]
          · isplitl [HA]; · iexact HA
            isplitl [HB]; · iexact HB
            isplitl [HC]; · iexact HC
            isplitl [HD]; · iexact HD
            isplitl [HE]; · iexact HE
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HA, HB, HC, HD, HE, HS0, HS1, HS2⟩, Hg⟩
  isplitr [Hg]
  · isplitl [HA]; · iexact HA
    isplitl [HB]; · iexact HB
    isplitl [HC]; · iexact HC
    isplitl [HD]; · iexact HD
    isplitl [HE]; · iexact HE
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KI.Run.lean ====
/-
  The run of the idealized kernel's @main as three segments — the host stretch that rounds the three arguments to
  bf16, the projection region, the attention region — over the thread state "every unscoped buffer at the boundary's
  contents, the generator register at some state, nothing owed". The contents at each boundary are a fold from the
  launch memory: a host stretch applies its operations; a region leaves its windows' arrays at what its write-backs
  fold to and every other buffer as entered. Each region's proof data sit at that region's entry contents. The attention
  region's invariant names its three scratch buffers' contents point by point; it is entered from, and gives back, the
  plain scoped rest. The run's post reads every unscoped buffer off the last boundary, so it yields both the frame (no
  segment writes an argument) and the result array.
-/
import proofs.«165870_j3324304687449_2_alg».proof.Proof.KI.R0
import proofs.«165870_j3324304687449_2_alg».proof.Proof.KI.R1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch (the projection region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the attention region's entry contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### No segment writes an argument: the host stretch writes the three rounded copies, the regions their outputs -/

/-- A buffer the host stretch does not write holds its launch contents after it. -/
theorem W1_of_not_written (c : Dev nD) (b : Ref sig .tc) (h0 : b ≠ main_v0) (h1 : b ≠ main_v1) (h2 : b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

theorem W3_main_arg0 (c : Dev nD) : W3 m ρ c (Proc.devRef .tc main_arg0) = m ((c : Thread nD τ).loc main_arg0) :=
  (W3_of_ne m ρ c main_arg0 (by decide)).trans <| (W2_of_ne m ρ c main_arg0 (by decide)).trans <|
    (W1_of_not_written m ρ c main_arg0 (by decide) (by decide) (by decide)).trans rfl
theorem W3_main_arg1 (c : Dev nD) : W3 m ρ c (Proc.devRef .tc main_arg1) = m ((c : Thread nD τ).loc main_arg1) :=
  (W3_of_ne m ρ c main_arg1 (by decide)).trans <| (W2_of_ne m ρ c main_arg1 (by decide)).trans <|
    (W1_of_not_written m ρ c main_arg1 (by decide) (by decide) (by decide)).trans rfl
theorem W3_main_arg2 (c : Dev nD) : W3 m ρ c (Proc.devRef .tc main_arg2) = m ((c : Thread nD τ).loc main_arg2) :=
  (W3_of_ne m ρ c main_arg2 (by decide)).trans <| (W2_of_ne m ρ c main_arg2 (by decide)).trans <|
    (W1_of_not_written m ρ c main_arg2 (by decide) (by decide) (by decide)).trans rfl
/-- The result array at the end is what the attention region's write-backs fold to. -/
theorem W3_main_v4 (c : Dev nD) : W3 m ρ c (Proc.devRef .tc main_v4) = (dat1 (V2 m ρ) c).arrAt 3 cfg1.N :=
  W3_arr m ρ c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`. Its invariant is entered from the
    plain scoped rest (every scratch at anything) and gives it back, forgetting the scratch buffers' named contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine (show _ ⊢ Pipeline.ΦA spec1 c from ?_).trans (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last _) from rfl]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run with the result array and the arguments named: the result at what the attention region's write-backs
    fold to, each argument as launched. -/
theorem run_result : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v4 (by decide))).trans (W3_main_v4 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- THE FRAME: every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_result m ρ)

end Cert.KernelIdeal.Hand

end
-- ==== Proof.K.R0.lean ====
import proofs.«165870_j3324304687449_2_alg».proof.Proof.Gen.Kernel.Launch
import proofs.«165870_j3324304687449_2_alg».proof.Proof.Gen.Kernel.Skeleton
import proofs.«165870_j3324304687449_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when region 0 is entered: the parameter its half is stated at
variable (V : (c : Dev nD) → (b : Ref sig .tc) → Buf (Elt F) ((c : Thread nD τ).loc b))

/-! # Region 0 of @main: the projection call (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: an unfetched input's block index has
    not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight matrix, fetched at the first point only) likewise: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x1024x1024 := Rect.unit (s := S1x1024x1024) ![0, 0, 0] S1x1024x1024.size inb_S1x1024x1024_S1x1024x1024_0_0_0
abbrev r0_1 : Rect S1024x1024 := Rect.unit (s := S1024x1024) ![0, 0] S1024x1024.size inb_S1024x1024_S1024x1024_0_0

/-! ## What the body leaves in the output window's buffer -/

/-- Window 2's staging buffer after the body, from the input windows' blocks: its one whole-block store, whose
    payload is the product of the two loaded blocks, rounded. -/
def out0_2 (x0 : Vec F S1x1024x1024 .bf16) (x1 : Vec F S1024x1024 .bf16) : Vec F S1x1024x1024 .bf16 :=
  View.canon [⟨r0_0, k0_pay1 (View.ld x0 r0_0) (View.ld x1 r0_1)⟩]

/-- The store tiles the buffer, so it covers it. -/
theorem cover0_2 (p0 : Vec F S1x1024x1024 .bf16) (y : S1x1024x1024.Idx) :
    ∃ pc ∈ ([⟨r0_0, p0⟩] : List (View.Piece (Elt F) S1x1024x1024 .bf16)), y ∈ pc.1.set :=
  View.cover_of_tiled [⟨r0_0, p0⟩] S1x1024x1024.size (by rfl) y

/-! ## The body's triple -/

set_option maxHeartbeats 1000000 in
/-- The kernel body on whole staging memrefs, the inputs' at read contents `x0`, `x1` and the output's at anything,
    runs to the continuation holding the inputs' as they were and the output's at `out0_2` of the inputs'. -/
theorem sound_kernel0 (c : Dev nD) (E : Set ℕ) (i : grid0.Coords)
    (arg0 : Memref sig .tc .vmem S1x1024x1024 .bf16) (harg0 : arg0.IsWhole)
    (arg1 : Memref sig .tc .vmem S1024x1024 .bf16) (harg1 : arg1.IsWhole)
    (arg2 : Memref sig .tc .vmem S1x1024x1024 .bf16) (harg2 : arg2.IsWhole)
    (x0 : Vec F S1x1024x1024 .bf16) (x1 : Vec F S1024x1024 .bf16) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__proj_kernel i arg0 harg0 arg1 harg1 arg2 harg2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.Runs.lean ====
import proofs.«165870_j3324304687449_2_alg».proof.Proof.Gen.Kernel.Launch
import proofs.«165870_j3324304687449_2_alg».proof.Proof.Gen.Kernel.Skeleton
import proofs.«165870_j3324304687449_2_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the region-entry contents and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the region-entry contents and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the region-entry contents and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if`: grid coordinate 2 is 0 (the scalar chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 4): coordinate 2 runs fastest over a 4 × 8 × 4 grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if`: grid coordinate 2 is 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The three inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where coordinate 2 is not 3 the output window is idle (nothing is stored into it) and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- Where coordinate 2 is 3 the output window is live: the body stores its block. -/
theorem liveAt1_3_C : ∀ t : Fin cfg1.N, ¬cond1_0 (grid1.coords t) → cond1_1 (grid1.coords t) → cfg1.idle 3 (grid1.coords t) = false := by decide +kernel

/-! ## The staging and scratch memrefs -/

/-- One staging buffer of the output window, through which its contents are stated (the choice does not matter). -/
abbrev VO1_3 : View sig .tc .vmem S1x512x1024 .f32 := (Memref.whole cc1_stg3_0 : Memref sig .tc .vmem S1x512x1024 .f32).view
/-- Each window's current staging memref at point `t`, as the pipeline passes it, and its wholeness. -/
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
/-- The scratch operands: the running maximum, the running denominator, the running numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view

/-- The scoped buffers of the core that are neither staging buffers of this region nor its scratch: the other region's staging buffers, each at some contents. -/
abbrev scOther1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region's class invariant with the three scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.K.R1.RunA.lean ====
import proofs.«165870_j3324304687449_2_alg».proof.Proof.K.R1.Runs

set_option maxRecDepth 16384

noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- The whole body in case A: on whole staging memrefs, the inputs at their blocks, the output (idle here) at contents handed back untouched, the three scratch buffers at anything (the case stores each whole before reading it),
    the body runs to the continuation holding the inputs as they were and each scratch buffer with its pieces written. The pieces are the witness. -/
noncomputable def kernelRun1_A (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1024x1024 .bf16) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.R1.RunB.lean ====
import proofs.«165870_j3324304687449_2_alg».proof.Proof.K.R1.RunA

set_option maxRecDepth 16384

noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- The whole body in case B: on whole staging memrefs, the inputs at their blocks, the output (idle here) at contents handed back untouched, the three scratch buffers at what the point before left,
    the body runs to the continuation holding the inputs as they were and each scratch buffer with its pieces written. The pieces are the witness. -/
noncomputable def kernelRun1_B (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.R1.RunC.lean ====
import proofs.«165870_j3324304687449_2_alg».proof.Proof.K.R1.RunB

set_option maxRecDepth 16384

noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- The whole body in case C: on whole staging memrefs, the inputs at their blocks, the output at anything, the three scratch buffers at what the point before left,
    the body runs to the continuation holding the inputs as they were, the output with its pieces written and each scratch buffer with its pieces written. The pieces are the witness. -/
noncomputable def kernelRun1_C (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.R1.lean ====
import proofs.«165870_j3324304687449_2_alg».proof.Proof.K.R1.RunC

set_option maxRecDepth 16384

noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- What case A leaves in the output window's staging buffer: its pieces read back over junk (none here: a placeholder nothing consults, the window being idle and not written back at the case's points). -/
def out1_A_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1024x1024 .bf16) : Vec F S1x512x1024 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- Case A's pieces for scratch 0 cover it. -/
theorem scover1_A_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1024x1024 .bf16) (y : S512x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S512x1.size (by sl_kernel_rfl) y

/-- What case A leaves in scratch 0: its pieces read back over junk. -/
def sout1_A_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1024x1024 .bf16) : Vec F S512x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- Case A's pieces for scratch 1 cover it. -/
theorem scover1_A_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1024x1024 .bf16) (y : S512x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S512x1.size (by sl_kernel_rfl) y

/-- What case A leaves in scratch 1: its pieces read back over junk. -/
def sout1_A_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1024x1024 .bf16) : Vec F S512x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- Case A's pieces for scratch 2 cover it. -/
theorem scover1_A_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1024x1024 .bf16) (y : S512x1024.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S512x1024.size (by sl_kernel_rfl) y

/-- What case A leaves in scratch 2: its pieces read back over junk. -/
def sout1_A_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1024x1024 .bf16) : Vec F S512x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- What case B leaves in the output window's staging buffer: its pieces read back over junk (none here: a placeholder nothing consults, the window being idle and not written back at the case's points). -/
def out1_B_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) : Vec F S1x512x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- Case B's pieces for scratch 0 cover it. -/
theorem scover1_B_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S512x1.size (by sl_kernel_rfl) y

/-- What case B leaves in scratch 0: its pieces read back over junk. -/
def sout1_B_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- Case B's pieces for scratch 1 cover it. -/
theorem scover1_B_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S512x1.size (by sl_kernel_rfl) y

/-- What case B leaves in scratch 1: its pieces read back over junk. -/
def sout1_B_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- Case B's pieces for scratch 2 cover it. -/
theorem scover1_B_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) (y : S512x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S512x1024.size (by sl_kernel_rfl) y

/-- What case B leaves in scratch 2: its pieces read back over junk. -/
def sout1_B_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- Case C's pieces for the output window tile its block (one store of the whole block), so they cover it. -/
theorem cover1_C_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) (y : S1x512x1024.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x512x1024.size (by sl_kernel_rfl) y

/-- What case C leaves in the output window's staging buffer: its pieces read back over junk. -/
def out1_C_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) : Vec F S1x512x1024 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-- Case C's pieces for scratch 0 cover it. -/
theorem scover1_C_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) (y : S512x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S512x1.size (by sl_kernel_rfl) y

/-- What case C leaves in scratch 0: its pieces read back over junk. -/
def sout1_C_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- Case C's pieces for scratch 1 cover it. -/
theorem scover1_C_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) (y : S512x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S512x1.size (by sl_kernel_rfl) y

/-- What case C leaves in scratch 1: its pieces read back over junk. -/
def sout1_C_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- Case C's pieces for scratch 2 cover it. -/
theorem scover1_C_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) (y : S512x1024.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S512x1024.size (by sl_kernel_rfl) y

/-- What case C leaves in scratch 2: its pieces read back over junk. -/
def sout1_C_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

/-! ## What the output window and the scratch buffers hold after each point -/

/-- THE ACCUMULATION. What the output window's staging buffer and the three scratch buffers (running maximum, running denominator, running numerator)
    hold after the body at position `n`: the case the closed forms select at `n`, run at the point's memrefs and input blocks, the scratch buffers at what
    position `n - 1` left. An assignment of the conditions no point meets is no case. -/
def outsAt1 (c : Dev nD) : (n : ℕ) → n < cfg1.N → Vec F S1x512x1024 .f32 × Vec F S512x1 .f32 × Vec F S512x1 .f32 × Vec F S512x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no staging buffer of this region at anything);
    afterwards the same with the three scratch buffers at what the point before left in them, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

/-- After point `n`: the scratch buffers at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of this region's pipeline on core `c`: the arrays as the region finds them (`V`); after the body at point `t` each input's buffer
    at its block and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the closed forms say which case the point is in; the invariant hands the body the
    three scratch buffers at what the point before left (at anything at the first point) and takes them back at this point's contents, the pieces
    covering each; the output window is stored whole where coordinate 2 is 3 and handed back untouched elsewhere; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨HA, HB, HC, HD, HE, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HA HB HC HD HE HS0 HS1 HS2 Hg]
        · isplitr [Hg]
          · isplitl [HA]; · iexact HA
            isplitl [HB]; · iexact HB
            isplitl [HC]; · iexact HC
            isplitl [HD]; · iexact HD
            isplitl [HE]; · iexact HE
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HA, HB, HC, HD, HE, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HA HB HC HD HE HS0 HS1 HS2 Hg]
        · isplitr [Hg]
          · isplitl [HA]; · iexact HA
            isplitl [HB]; · iexact HB
            isplitl [HC]; · iexact HC
            isplitl [HD]; · iexact HD
            isplitl [HE]; · iexact HE
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      by_cases hz : t.val = 0
      · exfalso; omega
      · rw [PhiS1_castSucc V c t, PhiS1_pos V c _ _ hz]
        iintro ⟨⟨⟨HA, HB, HC, HD, HE, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HA HB HC HD HE HS0 HS1 HS2 Hg]
        · isplitr [Hg]
          · isplitl [HA]; · iexact HA
            isplitl [HB]; · iexact HB
            isplitl [HC]; · iexact HC
            isplitl [HD]; · iexact HD
            isplitl [HE]; · iexact HE
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨HA, HB, HC, HD, HE, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HA HB HC HD HE HS0 HS1 HS2 Hg]
        · isplitr [Hg]
          · isplitl [HA]; · iexact HA
            isplitl [HB]; · iexact HB
            isplitl [HC]; · iexact HC
            isplitl [HD]; · iexact HD
            isplitl [HE]; · iexact HE
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HA, HB, HC, HD, HE, HS0, HS1, HS2⟩, Hg⟩
  isplitr [Hg]
  · isplitl [HA]; · iexact HA
    isplitl [HB]; · iexact HB
    isplitl [HC]; · iexact HC
    isplitl [HD]; · iexact HD
    isplitl [HE]; · iexact HE
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.K.Run.lean ====
/-
  The run of the kernel's @main as three segments — the host stretch that rounds the three arguments to
  bf16, the projection region, the attention region — over the thread state "every unscoped buffer at the boundary's
  contents, the generator register at some state, nothing owed". The contents at each boundary are a fold from the
  launch memory: a host stretch applies its operations; a region leaves its windows' arrays at what its write-backs
  fold to and every other buffer as entered. Each region's proof data sit at that region's entry contents. The attention
  region's invariant names its three scratch buffers' contents point by point; it is entered from, and gives back, the
  plain scoped rest. The run's post reads every unscoped buffer off the last boundary, so it yields both the frame (no
  segment writes an argument) and the result array.
-/
import proofs.«165870_j3324304687449_2_alg».proof.Proof.K.R0
import proofs.«165870_j3324304687449_2_alg».proof.Proof.K.R1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch (the projection region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the attention region's entry contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### No segment writes an argument: the host stretch writes the three rounded copies, the regions their outputs -/

/-- A buffer the host stretch does not write holds its launch contents after it. -/
theorem W1_of_not_written (c : Dev nD) (b : Ref sig .tc) (h0 : b ≠ main_v0) (h1 : b ≠ main_v1) (h2 : b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

theorem W3_main_arg0 (c : Dev nD) : W3 m ρ c (Proc.devRef .tc main_arg0) = m ((c : Thread nD τ).loc main_arg0) :=
  (W3_of_ne m ρ c main_arg0 (by decide)).trans <| (W2_of_ne m ρ c main_arg0 (by decide)).trans <|
    (W1_of_not_written m ρ c main_arg0 (by decide) (by decide) (by decide)).trans rfl
theorem W3_main_arg1 (c : Dev nD) : W3 m ρ c (Proc.devRef .tc main_arg1) = m ((c : Thread nD τ).loc main_arg1) :=
  (W3_of_ne m ρ c main_arg1 (by decide)).trans <| (W2_of_ne m ρ c main_arg1 (by decide)).trans <|
    (W1_of_not_written m ρ c main_arg1 (by decide) (by decide) (by decide)).trans rfl
theorem W3_main_arg2 (c : Dev nD) : W3 m ρ c (Proc.devRef .tc main_arg2) = m ((c : Thread nD τ).loc main_arg2) :=
  (W3_of_ne m ρ c main_arg2 (by decide)).trans <| (W2_of_ne m ρ c main_arg2 (by decide)).trans <|
    (W1_of_not_written m ρ c main_arg2 (by decide) (by decide) (by decide)).trans rfl
/-- The result array at the end is what the attention region's write-backs fold to. -/
theorem W3_main_v4 (c : Dev nD) : W3 m ρ c (Proc.devRef .tc main_v4) = (dat1 (V2 m ρ) c).arrAt 3 cfg1.N :=
  W3_arr m ρ c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`. Its invariant is entered from the
    plain scoped rest (every scratch at anything) and gives it back, forgetting the scratch buffers' named contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine (show _ ⊢ Pipeline.ΦA spec1 c from ?_).trans (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last _) from rfl]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run with the result array and the arguments named: the result at what the attention region's write-backs
    fold to, each argument as launched. -/
theorem run_result : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v4 (by decide))).trans (W3_main_v4 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- THE FRAME: every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_result m ρ)

end Cert.Kernel.Hand

end
-- ==== Proof.Frames.lean ====
import proofs.«165870_j3324304687449_2_alg».proof.Defs
import proofs.«165870_j3324304687449_2_alg».proof.Proof.Gen.Pre_finite_inputs
import proofs.«165870_j3324304687449_2_alg».proof.Proof.KI.Run
import proofs.«165870_j3324304687449_2_alg».proof.Proof.K.Run

namespace Cert.Proof.Frames

open Idealize.ShloMosaic Idealize.SL.Sem

/-- The kernel's frame claim, at the bit-exact instance: every weakly fair execution of @main terminates, nothing faulting,
    with the three argument arrays as launched. -/
theorem frame_p : Cert.frame_Kernel := fun m ρ _ => Cert.Kernel.Hand.frame (F := Bits) m ρ

/-- The same of the idealized kernel, at the ideal instance. -/
theorem frame_pi : Cert.frame_KernelIdeal := fun m ρ _ => Cert.KernelIdeal.Hand.frame (F := Ideal) m ρ

end Cert.Proof.Frames
-- ==== Proof.Spec.lean ====
/-
  The specification: single-head attention with a bilinear score, over the extended reals.
  For x : [4, 4096, 1024] and QK, VO : [1024, 1024],
    proj  b t e = ∑ d, x[b,t,d] · QK[d,e]
    score b t u = (∑ e, proj b t e · x[b,u,e]) / 32
    attn  b t u = exp (score b t u − max_u' score b t u') / ∑ u', exp (score b t u' − max …)
    G     b t e = ∑ d, (∑ u, attn b t u · x[b,u,d]) · VO[d,e].
  The divisor 32 is kept as the f32 word 0x42000000 that both programs carry.
-/
import Idealize.ShloMosaic.PureOps.Ideal
import Idealize.ShloMosaic.Lib.ValueIdx

noncomputable section

open scoped BigOperators

namespace Cert.Attn

open Idealize.ShloMosaic Idealize.ShloMosaic.ValueIdx

/-- A [4, 4096, 1024] array of extended reals. -/
abbrev Arr3 : Type := (⟨3, ![4, 4096, 1024]⟩ : Shape).Idx → EReal
/-- A [1024, 1024] array of extended reals. -/
abbrev Mat : Type := (⟨2, ![1024, 1024]⟩ : Shape).Idx → EReal

/-- The projected query: row (b, t) of x times QK. -/
def proj (x : Arr3) (QK : Mat) (b : Fin 4) (t : Fin 4096) (e : Fin 1024) : EReal :=
  ∑ d : Fin 1024, x (ix3 b t d) * QK (ix2 d e)

/-- The score of key row u for query row t of batch b: the projected query against x's row u, over 32. -/
def score (x : Arr3) (QK : Mat) (b : Fin 4) (t u : Fin 4096) : EReal :=
  Ideal.div (∑ e : Fin 1024, proj x QK b t e * x (ix3 b u e)) (Ideal.ofBits .f32 0x42000000#32)

/-- The largest score of the row. -/
def rowmax (x : Arr3) (QK : Mat) (b : Fin 4) (t : Fin 4096) : EReal :=
  Finset.univ.sup' Finset.univ_nonempty fun u : Fin 4096 => score x QK b t u

/-- The shifted exponential weight. -/
def expw (x : Arr3) (QK : Mat) (b : Fin 4) (t u : Fin 4096) : EReal :=
  Ideal.exp (score x QK b t u - rowmax x QK b t)

/-- The row's normaliser. -/
def denom (x : Arr3) (QK : Mat) (b : Fin 4) (t : Fin 4096) : EReal :=
  ∑ u : Fin 4096, expw x QK b t u

/-- The softmax weight. -/
def attn (x : Arr3) (QK : Mat) (b : Fin 4) (t u : Fin 4096) : EReal :=
  Ideal.div (expw x QK b t u) (denom x QK b t)

/-- The weighted average of x's rows. -/
def av (x : Arr3) (QK : Mat) (b : Fin 4) (t : Fin 4096) (d : Fin 1024) : EReal :=
  ∑ u : Fin 4096, attn x QK b t u * x (ix3 b u d)

/-- The result at coordinates (b, t, e). -/
def Gat (x : Arr3) (QK VO : Mat) (b : Fin 4) (t : Fin 4096) (e : Fin 1024) : EReal :=
  ∑ d : Fin 1024, av x QK b t d * VO (ix2 d e)

/-- The result array. -/
def G (x : Arr3) (QK VO : Mat) : Arr3 := fun i => Gat x QK VO (i 0) (i 1) (i 2)

theorem G_ix3 (x : Arr3) (QK VO : Mat) (b : Fin 4) (t : Fin 4096) (e : Fin 1024) :
    G x QK VO (ix3 b t e) = Gat x QK VO b t e := rfl

end Cert.Attn

end
-- ==== Proof.AttnConsts.lean ====
/-
  The float constants the two programs spell, as the extended reals their words denote:
  −∞, +∞, 32, 1/32, 1 and 0.
-/
import Idealize.ShloMosaic.PureOps.Ideal

noncomputable section

namespace Cert.Attn.Consts

open Idealize.ShloMosaic

/-- 0xFF800000 is −∞. -/
theorem negInf : Ideal.ofBits .f32 0xFF800000#32 = (⊥ : EReal) := by simp [Ideal.ofBits, Ideal.ieee]
/-- 0x7F800000 is +∞. -/
theorem posInf : Ideal.ofBits .f32 0x7F800000#32 = (⊤ : EReal) := by simp [Ideal.ofBits, Ideal.ieee]
/-- 0x00000000 is 0. -/
theorem zero : Ideal.ofBits .f32 0x00000000#32 = (0 : EReal) := by simp [Ideal.ofBits, Ideal.ieee]
/-- 0x42000000 is 32. -/
theorem c32 : Ideal.ofBits .f32 0x42000000#32 = ((32 : ℝ) : EReal) := by
  simp [Ideal.ofBits, Ideal.ieee, -EReal.coe_mul]; norm_num
/-- 0x3D000000 is 1/32. -/
theorem c1_32 : Ideal.ofBits .f32 0x3D000000#32 = ((1 / 32 : ℝ) : EReal) := by
  simp [Ideal.ofBits, Ideal.ieee, -EReal.coe_mul]; norm_num
/-- 0x3F800000 is 1. -/
theorem one : Ideal.ofBits .f32 0x3F800000#32 = (1 : EReal) := by
  simp [Ideal.ofBits, Ideal.ieee, -EReal.coe_mul]; norm_num

/-- Dividing by the word 32 is multiplying by the word 1/32, on every extended real. -/
theorem div32_eq_mul (a : EReal) :
    Ideal.div a (Ideal.ofBits .f32 0x42000000#32) = a * Ideal.ofBits .f32 0x3D000000#32 := by
  rw [c32, c1_32]
  exact Ideal.div_coe (by norm_num) a

end Cert.Attn.Consts

end
-- ==== Proof.RefIsG.lean ====
/-
  The reference program's result, read index by index, is the specification G of its three argument arrays:
  two contractions give the scores, the host divides by 32, takes each row's maximum from −∞, subtracts it,
  exponentiates, sums the row, divides, and contracts with x and then with VO.
-/
import proofs.«165870_j3324304687449_2_alg».proof.Defs
import proofs.«165870_j3324304687449_2_alg».proof.Proof.Spec
import proofs.«165870_j3324304687449_2_alg».proof.Proof.AttnConsts
import proofs.«165870_j3324304687449_2_alg».proof.Proof.Gen.ReferenceIdeal.Read
import proofs.«165870_j3324304687449_2_alg».proof.Proof.Gen.Pre_finite_inputs

noncomputable section

open scoped BigOperators

namespace Cert.ReferenceIdeal.RefValue

open Cert.ReferenceIdeal Cert.ReferenceIdeal.Read Idealize.ShloMosaic Idealize.ShloMosaic.TcCoe Idealize.SL.Sem
  Idealize.ShloMosaic.StableHlo Idealize.ShloMosaic.ValueIdx Cert.Attn

/-- Folding max from −∞ over a nonempty finite family is its supremum. -/
theorem fold_max_bot_eq_sup' {ι : Type} [Fintype ι] [Nonempty ι] (f : ι → EReal) :
    Finset.univ.fold max (⊥ : EReal) f = Finset.univ.sup' Finset.univ_nonempty f := by
  apply le_antisymm
  · rw [Finset.fold_max_le]
    exact ⟨bot_le, fun x hx => Finset.le_sup' f hx⟩
  · rw [Finset.sup'_le_iff]
    intro x hx
    rw [Finset.le_fold_max]
    exact Or.inr ⟨x, hx, le_rfl⟩

/-- The score array drops its last axis. -/
theorem red : S4x4096x4096.Reduces [2] S4x4096 := by decide

/-- Row (b, t) with key coordinate k put back is (b, t, k). -/
theorem lift_at (b : Fin 4) (t : Fin 4096) (k : Fin (S4x4096x4096.size 2)) :
    red.lift (ix2 b t) k = ix3 b t (⟨k.val, k.isLt⟩ : Fin 4096) := by
  funext c; apply Fin.ext
  fin_cases c <;> rfl

section
variable (x0 : (⟨S4x4096x1024, .f32⟩ : BufTy).Contents (Elt Ideal))
  (x1 x2 : (⟨S1024x1024, .f32⟩ : BufTy).Contents (Elt Ideal))

theorem v0_at (b : Fin 4) (t : Fin 4096) (e : Fin 1024) :
    val_main_v0 (F := Ideal) x0 x1 (ix3 b t e) = proj x0 x1 b t e := by
  rw [val_main_v0_apply]
  refine Finset.sum_congr rfl fun k _ => ?_
  have el : lidx_main_v0 (ix3 b t e) k = ix3 b t k :=
    funext fun a => Fin.ext (by match a with | ⟨0, _⟩ => rfl | ⟨1, _⟩ => rfl | ⟨2, _⟩ => rfl)
  have er : ridx_main_v0 (ix3 b t e) k = ix2 k e :=
    funext fun a => Fin.ext (by match a with | ⟨0, _⟩ => rfl | ⟨1, _⟩ => rfl)
  rw [el, er]

theorem v1_at (b : Fin 4) (t u : Fin 4096) :
    val_main_v1 (F := Ideal) x0 x1 (ix3 b t u) = ∑ e : Fin 1024, proj x0 x1 b t e * x0 (ix3 b u e) := by
  rw [val_main_v1_apply]
  refine Finset.sum_congr rfl fun k _ => ?_
  have el : lidx_main_v1 (ix3 b t u) k = ix3 b t k :=
    funext fun a => Fin.ext (by match a with | ⟨0, _⟩ => rfl | ⟨1, _⟩ => rfl | ⟨2, _⟩ => rfl)
  have er : ridx_main_v1 (ix3 b t u) k = ix3 b u k :=
    funext fun a => Fin.ext (by match a with | ⟨0, _⟩ => rfl | ⟨1, _⟩ => rfl | ⟨2, _⟩ => rfl)
  rw [el, er, v0_at]

theorem v3_at (b : Fin 4) (t u : Fin 4096) :
    val_main_v3 (F := Ideal) x0 x1 (ix3 b t u) = score x0 x1 b t u := by
  rw [val_main_v3_apply, val_main_v2_apply, val_main_cst_apply, v1_at]
  rfl

theorem v4_at (b : Fin 4) (t : Fin 4096) :
    val_main_v4 (F := Ideal) x0 x1 (ix2 b t)
      = Finset.univ.fold max (Ideal.ofBits .f32 0xFF800000#32) (fun u : Fin 4096 => score x0 x1 b t u) := by
  have hv3 := v3_at x0 x1 b t
  unfold val_main_v4
  generalize val_main_v3 (F := Ideal) x0 x1 = y at hv3 ⊢
  refine (Host.reduce_eq_fold_single (α := Ideal .f32) (FloatOps.maximumf (F := Ideal) (φ := .f32)) y
    (val_main_cst_0 (F := Ideal)) _ red _ (ix2 b t)).trans ?_
  have hf : (y ∘ red.lift (ix2 b t)) = fun u : Fin 4096 => score x0 x1 b t u := funext fun k => by
    show y (red.lift (ix2 b t) k) = _
    rw [lift_at]
    exact hv3 _
  exact congrArg (fun f => Finset.fold max (Ideal.ofBits .f32 0xFF800000#32) f (Finset.univ : Finset (Fin 4096))) hf

theorem v6_at (b : Fin 4) (t : Fin 4096) :
    val_main_v6 (F := Ideal) x0 x1 (ix2 b t) = rowmax x0 x1 b t := by
  rw [val_main_v6_apply, val_main_v5_apply, val_main_cst_1_apply, v4_at]
  show max (Ideal.ofBits .f32 0xFF800000#32) _ = _
  rw [Cert.Attn.Consts.negInf, max_bot_left, fold_max_bot_eq_sup']
  rfl

theorem v8_at (b : Fin 4) (t u : Fin 4096) :
    val_main_v8 (F := Ideal) x0 x1 (ix3 b t u) = rowmax x0 x1 b t := by
  rw [val_main_v8_apply, val_main_v7_apply]
  have e : idx_main_v7 (idx_main_v8 (ix3 b t u)) = ix2 b t :=
    funext fun a => Fin.ext (by match a with | ⟨0, _⟩ => rfl | ⟨1, _⟩ => rfl)
  rw [e, v6_at]

theorem v10_at (b : Fin 4) (t u : Fin 4096) :
    val_main_v10 (F := Ideal) x0 x1 (ix3 b t u) = expw x0 x1 b t u := by
  rw [val_main_v10_apply, val_main_v9_apply, v3_at, v8_at]
  rfl

theorem v11_at (b : Fin 4) (t : Fin 4096) :
    val_main_v11 (F := Ideal) x0 x1 (ix2 b t) = denom x0 x1 b t := by
  rw [val_main_v11_apply, val_main_cst_2_apply]
  show Ideal.ofBits .f32 0x00000000#32 + _ = _
  rw [Ideal.ofBits_zero_f32, zero_add]
  refine Finset.sum_congr rfl fun k _ => ?_
  have e : idx_main_v11 (ix2 b t) k = ix3 b t k :=
    funext fun a => Fin.ext (by match a with | ⟨0, _⟩ => rfl | ⟨1, _⟩ => rfl | ⟨2, _⟩ => rfl)
  rw [e, v10_at]

theorem v13_at (b : Fin 4) (t u : Fin 4096) :
    val_main_v13 (F := Ideal) x0 x1 (ix3 b t u) = denom x0 x1 b t := by
  rw [val_main_v13_apply, val_main_v12_apply]
  have e : idx_main_v12 (idx_main_v13 (ix3 b t u)) = ix2 b t :=
    funext fun a => Fin.ext (by match a with | ⟨0, _⟩ => rfl | ⟨1, _⟩ => rfl)
  rw [e, v11_at]

theorem v14_at (b : Fin 4) (t u : Fin 4096) :
    val_main_v14 (F := Ideal) x0 x1 (ix3 b t u) = attn x0 x1 b t u := by
  rw [val_main_v14_apply, v10_at, v13_at]
  rfl

theorem v15_at (b : Fin 4) (t : Fin 4096) (d : Fin 1024) :
    val_main_v15 (F := Ideal) x0 x1 (ix3 b t d) = av x0 x1 b t d := by
  rw [val_main_v15_apply]
  refine Finset.sum_congr rfl fun k _ => ?_
  have el : lidx_main_v15 (ix3 b t d) k = ix3 b t k :=
    funext fun a => Fin.ext (by match a with | ⟨0, _⟩ => rfl | ⟨1, _⟩ => rfl | ⟨2, _⟩ => rfl)
  have er : ridx_main_v15 (ix3 b t d) k = ix3 b k d :=
    funext fun a => Fin.ext (by match a with | ⟨0, _⟩ => rfl | ⟨1, _⟩ => rfl | ⟨2, _⟩ => rfl)
  rw [el, er, v14_at]

theorem v16_at (b : Fin 4) (t : Fin 4096) (e : Fin 1024) :
    val_main_v16 (F := Ideal) x0 x1 x2 (ix3 b t e) = Gat x0 x1 x2 b t e := by
  rw [val_main_v16_apply]
  refine Finset.sum_congr rfl fun k _ => ?_
  have el : lidx_main_v16 (ix3 b t e) k = ix3 b t k :=
    funext fun a => Fin.ext (by match a with | ⟨0, _⟩ => rfl | ⟨1, _⟩ => rfl | ⟨2, _⟩ => rfl)
  have er : ridx_main_v16 (ix3 b t e) k = ix2 k e :=
    funext fun a => Fin.ext (by match a with | ⟨0, _⟩ => rfl | ⟨1, _⟩ => rfl)
  rw [el, er, v15_at]

/-- The reference's last stage is G of the argument arrays. -/
theorem ref_is_G : val_main_v16 (F := Ideal) x0 x1 x2 = Cert.Attn.G x0 x1 x2 := by
  funext i
  obtain ⟨b, t, e, rfl⟩ : ∃ (b : Fin 4) (t : Fin 4096) (e : Fin 1024), i = ix3 b t e := ⟨i 0, i 1, i 2, eq_ix3 i⟩
  rw [v16_at]
  rfl

end

/-- The reference runs and leaves its arguments as they were. -/
theorem frame_ri : Cert.frame_ReferenceIdeal := fun m ρ _ =>
  (θ_run Cert.ReferenceIdeal.defs _ _).mono (fun _ h c => (h c).2) (Cert.ReferenceIdeal.Value.run (F := Ideal) m ρ)

/-- The reference runs, its result is G of the argument arrays it started from, and those are unchanged. -/
theorem ref_run_G (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v16)
          = Cert.Attn.G (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m' ((c.tc : Thread Cert.ReferenceIdeal.nD Cert.ReferenceIdeal.τ).loc Cert.ReferenceIdeal.main_arg2)) :=
  (θ_run Cert.ReferenceIdeal.defs _ _).mono
    (fun _ h c => ⟨by rw [(h c).1, Read.val_main_v16_eq, ref_is_G], (h c).2⟩)
    (Cert.ReferenceIdeal.Value.run (F := Ideal) m' ρ')

/-- The idealized kernel is the kernel's own text read at the ideal instance: nothing was rewritten. -/
theorem preserves : Cert.preserves_Kernel_KernelIdeal := trivial

end Cert.ReferenceIdeal.RefValue

end
-- ==== Proof.KI.Pieces.lean ====
/-
  What each control case of the attention body leaves in its three scratch buffers and, at a last key block, in the
  output block — as the body's own arithmetic applied to the blocks it was handed. At a first key block the body
  first stores `-∞`, `0`, `0` and then reads them back, so the step runs from those; at the other points it runs
  from what the point before left. Each buffer is stored whole, so the last store is what remains.
-/
import proofs.«165870_j3324304687449_2_alg».proof.Proof.KI.R1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-! ## A later key block that is not the last -/

theorem sout1_B_0_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) :
    sout1_B_0 c i arg3 harg3 arg4 harg4 arg5 harg5 arg6 harg6 arg7 harg7 arg8 harg8 arg9 harg9 hc0 hc1 x0 x1 x2 xs0 xs1 xs2 = k1_pay2 (k1_pay8 x0 x1 xs0) := by
  unfold sout1_B_0
  rw [View.read_writes_eq_canon _ _ _ (scover1_B_0 c i arg3 harg3 arg4 harg4 arg5 harg5 arg6 harg6 arg7 harg7 arg8 harg8 arg9 harg9 hc0 hc1 x0 x1 x2 xs0 xs1 xs2)]
  unfold kernelRun1_B
  dsimp only
  sl_unfold_words
  refine (View.canon_cons_unit_zero (S := S512x1) hz2 _ _ _).trans ?_
  simp only [View.readAt_eq_ld, Memref.IsWhole.read_unread, View.readCov_unit_zero (S := S512x1) _ hz2, View.readCov_unit_zero (S := S512x1024) _ hz2, View.ld_unit_zero (S := S1x512x1024) hz3, View.ld_unit_zero (S := S1x1024x1024) hz3, View.ld_unit_zero (S := S1024x1024) hz2, View.ld_unit_zero (S := S512x1) hz2, View.ld_unit_zero (S := S512x1024) hz2]

theorem sout1_B_1_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) :
    sout1_B_1 c i arg3 harg3 arg4 harg4 arg5 harg5 arg6 harg6 arg7 harg7 arg8 harg8 arg9 harg9 hc0 hc1 x0 x1 x2 xs0 xs1 xs2 = k1_pay11 x0 x1 xs0 xs0 xs1 := by
  unfold sout1_B_1
  rw [View.read_writes_eq_canon _ _ _ (scover1_B_1 c i arg3 harg3 arg4 harg4 arg5 harg5 arg6 harg6 arg7 harg7 arg8 harg8 arg9 harg9 hc0 hc1 x0 x1 x2 xs0 xs1 xs2)]
  unfold kernelRun1_B
  dsimp only
  sl_unfold_words
  refine (View.canon_cons_unit_zero (S := S512x1) hz2 _ _ _).trans ?_
  simp only [View.readAt_eq_ld, Memref.IsWhole.read_unread, View.readCov_unit_zero (S := S512x1) _ hz2, View.readCov_unit_zero (S := S512x1024) _ hz2, View.ld_unit_zero (S := S1x512x1024) hz3, View.ld_unit_zero (S := S1x1024x1024) hz3, View.ld_unit_zero (S := S1024x1024) hz2, View.ld_unit_zero (S := S512x1) hz2, View.ld_unit_zero (S := S512x1024) hz2]

theorem sout1_B_2_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) :
    sout1_B_2 c i arg3 harg3 arg4 harg4 arg5 harg5 arg6 harg6 arg7 harg7 arg8 harg8 arg9 harg9 hc0 hc1 x0 x1 x2 xs0 xs1 xs2 = k1_pay1 (k1_pay12 x0 x1 xs0 xs0 xs2) (k1_pay13 x0 x1 xs0) x1 := by
  unfold sout1_B_2
  rw [View.read_writes_eq_canon _ _ _ (scover1_B_2 c i arg3 harg3 arg4 harg4 arg5 harg5 arg6 harg6 arg7 harg7 arg8 harg8 arg9 harg9 hc0 hc1 x0 x1 x2 xs0 xs1 xs2)]
  unfold kernelRun1_B
  dsimp only
  sl_unfold_words
  refine (View.canon_cons_unit_zero (S := S512x1024) hz2 _ _ _).trans ?_
  simp only [View.readAt_eq_ld, Memref.IsWhole.read_unread, View.readCov_unit_zero (S := S512x1) _ hz2, View.readCov_unit_zero (S := S512x1024) _ hz2, View.ld_unit_zero (S := S1x512x1024) hz3, View.ld_unit_zero (S := S1x1024x1024) hz3, View.ld_unit_zero (S := S1024x1024) hz2, View.ld_unit_zero (S := S512x1) hz2, View.ld_unit_zero (S := S512x1024) hz2]

/-! ## The last key block -/

theorem sout1_C_0_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) :
    sout1_C_0 c i arg3 harg3 arg4 harg4 arg5 harg5 arg6 harg6 arg7 harg7 arg8 harg8 arg9 harg9 hc0 hc1 x0 x1 x2 xs0 xs1 xs2 = k1_pay2 (k1_pay8 x0 x1 xs0) := by
  unfold sout1_C_0
  rw [View.read_writes_eq_canon _ _ _ (scover1_C_0 c i arg3 harg3 arg4 harg4 arg5 harg5 arg6 harg6 arg7 harg7 arg8 harg8 arg9 harg9 hc0 hc1 x0 x1 x2 xs0 xs1 xs2)]
  unfold kernelRun1_C
  dsimp only
  sl_unfold_words
  refine (View.canon_cons_unit_zero (S := S512x1) hz2 _ _ _).trans ?_
  simp only [View.readAt_eq_ld, Memref.IsWhole.read_unread, View.readCov_unit_zero (S := S512x1) _ hz2, View.readCov_unit_zero (S := S512x1024) _ hz2, View.ld_unit_zero (S := S1x512x1024) hz3, View.ld_unit_zero (S := S1x1024x1024) hz3, View.ld_unit_zero (S := S1024x1024) hz2, View.ld_unit_zero (S := S512x1) hz2, View.ld_unit_zero (S := S512x1024) hz2]

theorem sout1_C_1_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) :
    sout1_C_1 c i arg3 harg3 arg4 harg4 arg5 harg5 arg6 harg6 arg7 harg7 arg8 harg8 arg9 harg9 hc0 hc1 x0 x1 x2 xs0 xs1 xs2 = k1_pay11 x0 x1 xs0 xs0 xs1 := by
  unfold sout1_C_1
  rw [View.read_writes_eq_canon _ _ _ (scover1_C_1 c i arg3 harg3 arg4 harg4 arg5 harg5 arg6 harg6 arg7 harg7 arg8 harg8 arg9 harg9 hc0 hc1 x0 x1 x2 xs0 xs1 xs2)]
  unfold kernelRun1_C
  dsimp only
  sl_unfold_words
  refine (View.canon_cons_unit_zero (S := S512x1) hz2 _ _ _).trans ?_
  simp only [View.readAt_eq_ld, Memref.IsWhole.read_unread, View.readCov_unit_zero (S := S512x1) _ hz2, View.readCov_unit_zero (S := S512x1024) _ hz2, View.ld_unit_zero (S := S1x512x1024) hz3, View.ld_unit_zero (S := S1x1024x1024) hz3, View.ld_unit_zero (S := S1024x1024) hz2, View.ld_unit_zero (S := S512x1) hz2, View.ld_unit_zero (S := S512x1024) hz2]

theorem sout1_C_2_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) :
    sout1_C_2 c i arg3 harg3 arg4 harg4 arg5 harg5 arg6 harg6 arg7 harg7 arg8 harg8 arg9 harg9 hc0 hc1 x0 x1 x2 xs0 xs1 xs2 = k1_pay1 (k1_pay12 x0 x1 xs0 xs0 xs2) (k1_pay13 x0 x1 xs0) x1 := by
  unfold sout1_C_2
  rw [View.read_writes_eq_canon _ _ _ (scover1_C_2 c i arg3 harg3 arg4 harg4 arg5 harg5 arg6 harg6 arg7 harg7 arg8 harg8 arg9 harg9 hc0 hc1 x0 x1 x2 xs0 xs1 xs2)]
  unfold kernelRun1_C
  dsimp only
  sl_unfold_words
  refine (View.canon_cons_unit_zero (S := S512x1024) hz2 _ _ _).trans ?_
  simp only [View.readAt_eq_ld, Memref.IsWhole.read_unread, View.readCov_unit_zero (S := S512x1) _ hz2, View.readCov_unit_zero (S := S512x1024) _ hz2, View.ld_unit_zero (S := S1x512x1024) hz3, View.ld_unit_zero (S := S1x1024x1024) hz3, View.ld_unit_zero (S := S1024x1024) hz2, View.ld_unit_zero (S := S512x1) hz2, View.ld_unit_zero (S := S512x1024) hz2]

theorem out1_C_3_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1024x1024 .bf16) (xs0 : Vec F S512x1 .f32) (xs1 : Vec F S512x1 .f32) (xs2 : Vec F S512x1024 .f32) :
    out1_C_3 c i arg3 harg3 arg4 harg4 arg5 harg5 arg6 harg6 arg7 harg7 arg8 harg8 arg9 harg9 hc0 hc1 x0 x1 x2 xs0 xs1 xs2 = k1_pay3 (k1_pay1 (k1_pay12 x0 x1 xs0 xs0 xs2) (k1_pay13 x0 x1 xs0) x1) (k1_pay11 x0 x1 xs0 xs0 xs1) x2 := by
  unfold out1_C_3
  rw [View.read_writes_eq_canon _ _ _ (cover1_C_3 c i arg3 harg3 arg4 harg4 arg5 harg5 arg6 harg6 arg7 harg7 arg8 harg8 arg9 harg9 hc0 hc1 x0 x1 x2 xs0 xs1 xs2)]
  unfold kernelRun1_C
  dsimp only
  sl_unfold_words
  refine (View.canon_cons_unit_zero (S := S1x512x1024) hz3 _ _ _).trans ?_
  simp only [View.readAt_eq_ld, Memref.IsWhole.read_unread, View.readCov_unit_zero (S := S512x1) _ hz2, View.readCov_unit_zero (S := S512x1024) _ hz2, View.ld_unit_zero (S := S1x512x1024) hz3, View.ld_unit_zero (S := S1x1024x1024) hz3, View.ld_unit_zero (S := S1024x1024) hz2, View.ld_unit_zero (S := S512x1) hz2, View.ld_unit_zero (S := S512x1024) hz2]

/-! ## The first key block -/

theorem sout1_A_0_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1024x1024 .bf16) :
    sout1_A_0 c i arg3 harg3 arg4 harg4 arg5 harg5 arg6 harg6 arg7 harg7 arg8 harg8 arg9 harg9 hc0 hc1 x0 x1 x2 = k1_pay2 (k1_pay8 x0 x1 (k1_pay4 (F := F))) := by
  unfold sout1_A_0
  rw [View.read_writes_eq_canon _ _ _ (scover1_A_0 c i arg3 harg3 arg4 harg4 arg5 harg5 arg6 harg6 arg7 harg7 arg8 harg8 arg9 harg9 hc0 hc1 x0 x1 x2)]
  unfold kernelRun1_A
  dsimp only
  sl_unfold_words
  refine (View.canon_cons_unit_zero (S := S512x1) hz2 _ _ _).trans ?_
  simp only [View.readAt_eq_ld, Memref.IsWhole.read_unread, View.readCov_unit_zero (S := S512x1) _ hz2, View.readCov_unit_zero (S := S512x1024) _ hz2, View.ld_unit_zero (S := S1x512x1024) hz3, View.ld_unit_zero (S := S1x1024x1024) hz3, View.ld_unit_zero (S := S1024x1024) hz2, View.ld_unit_zero (S := S512x1) hz2, View.ld_unit_zero (S := S512x1024) hz2]

theorem sout1_A_1_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1024x1024 .bf16) :
    sout1_A_1 c i arg3 harg3 arg4 harg4 arg5 harg5 arg6 harg6 arg7 harg7 arg8 harg8 arg9 harg9 hc0 hc1 x0 x1 x2 = k1_pay11 x0 x1 (k1_pay4 (F := F)) (k1_pay4 (F := F)) (k1_pay5 (F := F)) := by
  unfold sout1_A_1
  rw [View.read_writes_eq_canon _ _ _ (scover1_A_1 c i arg3 harg3 arg4 harg4 arg5 harg5 arg6 harg6 arg7 harg7 arg8 harg8 arg9 harg9 hc0 hc1 x0 x1 x2)]
  unfold kernelRun1_A
  dsimp only
  sl_unfold_words
  refine (View.canon_cons_unit_zero (S := S512x1) hz2 _ _ _).trans ?_
  simp only [View.readAt_eq_ld, Memref.IsWhole.read_unread, View.readCov_unit_zero (S := S512x1) _ hz2, View.readCov_unit_zero (S := S512x1024) _ hz2, View.ld_unit_zero (S := S1x512x1024) hz3, View.ld_unit_zero (S := S1x1024x1024) hz3, View.ld_unit_zero (S := S1024x1024) hz2, View.ld_unit_zero (S := S512x1) hz2, View.ld_unit_zero (S := S512x1024) hz2]

theorem sout1_A_2_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1024x1024 .bf16) :
    sout1_A_2 c i arg3 harg3 arg4 harg4 arg5 harg5 arg6 harg6 arg7 harg7 arg8 harg8 arg9 harg9 hc0 hc1 x0 x1 x2 = k1_pay1 (k1_pay12 x0 x1 (k1_pay4 (F := F)) (k1_pay4 (F := F)) (k1_pay6 (F := F))) (k1_pay13 x0 x1 (k1_pay4 (F := F))) x1 := by
  unfold sout1_A_2
  rw [View.read_writes_eq_canon _ _ _ (scover1_A_2 c i arg3 harg3 arg4 harg4 arg5 harg5 arg6 harg6 arg7 harg7 arg8 harg8 arg9 harg9 hc0 hc1 x0 x1 x2)]
  unfold kernelRun1_A
  dsimp only
  sl_unfold_words
  refine (View.canon_cons_unit_zero (S := S512x1024) hz2 _ _ _).trans ?_
  simp only [View.readAt_eq_ld, Memref.IsWhole.read_unread, View.readCov_unit_zero (S := S512x1) _ hz2, View.readCov_unit_zero (S := S512x1024) _ hz2, View.ld_unit_zero (S := S1x512x1024) hz3, View.ld_unit_zero (S := S1x1024x1024) hz3, View.ld_unit_zero (S := S1024x1024) hz2, View.ld_unit_zero (S := S512x1) hz2, View.ld_unit_zero (S := S512x1024) hz2]

end Cert.KernelIdeal.Hand

end
-- ==== Proof.KI.Pay.lean ====
/-
  The attention body's arithmetic read index by index on the extended reals. One grid point of the attention region
  takes a block `q` of 512 projected query rows, a block `k` of 1024 rows of the input (keys and values at once),
  and the running row maximum `m`, row denominator `l` and row numerator `acc`; it forms the scores
  `s r u = (∑ e, q r e · k u e) · 2⁻⁵`, the new maximum `m' r = max (m r) (max_u s r u)`, the rescaling factor
  `exp (m r − m' r)`, the weights `p r u = exp (s r u − m' r)`, and leaves `l' r = exp (m r − m' r) · l r + ∑ u, p r u`,
  `acc' r d = exp (m r − m' r) · acc r d + ∑ u, p r u · k u d`. At the last key block the output row is
  `∑ d, (acc' r d · (1 / l' r)) · vo d e`. Format changes are the identity on the extended reals and a reshape that
  adds or drops a unit axis moves no element; what follows says so operation by operation.
-/
import proofs.«165870_j3324304687449_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Idealize.ShloMosaic Idealize.ShloMosaic.ValueIdx

/-! ## Layout operations of the column shapes, read at an index -/

/-- A length-512 vector cast to a 512×1 column reads, at `(r, 0)`, the vector at `r`. -/
theorem cast_col_apply {α : Type} (v : S512.Idx → α) (h : S512.ShapeCasts S512x1) (r : Fin 512) (z : Fin 1) :
    shapeCast S512x1 v h (ix2 r z) = v (ix1 r) :=
  shapeCast_apply v h _ _ (by
    rw [Shape.rowMajor_val_one, Shape.rowMajor_val_two]
    show r.val = r.val * 1 + z.val
    have := z.isLt; omega)

/-- A 512×1 column broadcast along 1024 lanes reads, at `(r, u)`, the column at `(r, 0)`. -/
theorem bcast_col_apply {α : Type} (v : S512x1.Idx → α) (h : S512x1.Broadcasts S512x1024) (r : Fin 512) (u : Fin 1024) :
    broadcastTo S512x1024 v h (ix2 r u) = v (ix2 r (0 : Fin 1)) := by
  refine broadcastTo_apply v h (ix2 r u) (ix2 r (0 : Fin 1)) fun ax => ?_
  match ax with
  | ⟨0, _⟩ => rfl
  | ⟨1, _⟩ => rfl

/-- A 1×512×1024 block read as a 512×1024 matrix. -/
theorem cast_q_apply {α : Type} (v : S1x512x1024.Idx → α) (h : S1x512x1024.ShapeCasts S512x1024) (r : Fin 512) (e : Fin 1024) :
    shapeCast S512x1024 v h (ix2 r e) = v (ix3 (0 : Fin 1) r e) :=
  shapeCast_1ab_ab_apply v h r e

/-- A 1×1024×1024 block read as a 1024×1024 matrix. -/
theorem cast_k_apply {α : Type} (v : S1x1024x1024.Idx → α) (h : S1x1024x1024.ShapeCasts S1024x1024) (u e : Fin 1024) :
    shapeCast S1024x1024 v h (ix2 u e) = v (ix3 (0 : Fin 1) u e) :=
  shapeCast_1ab_ab_apply v h u e

/-- A 512×1024 matrix written as a 1×512×1024 block. -/
theorem cast_out_apply {α : Type} (v : S512x1024.Idx → α) (h : S512x1024.ShapeCasts S1x512x1024) (z : Fin 1) (r : Fin 512) (e : Fin 1024) :
    shapeCast S1x512x1024 v h (ix3 z r e) = v (ix2 r e) :=
  shapeCast_ab_1ab_apply v h z r e

/-! ## The lane reductions -/

/-- The sum over the 1024 lanes of a row. -/
theorem rowsum_apply (src : FVec Ideal S512x1024 .f32) (h : S512x1024.Reduces [1] S512) (hφ : FKind.Formats .f32)
    (hacc : (0x00000000#32 : BitVec 32) = FKind.add.neutral .f32 hφ) (r : Fin 512) :
    multiReduction .add [1] S512 src 0x00000000#32 h hφ hacc (ix1 r) = ∑ u : Fin 1024, src (ix2 r u) := by
  refine (Ideal.multiReduction_add_single src _ h hφ hacc (ix1 r)).trans ?_
  refine Finset.sum_congr rfl fun u _ => congrArg src ?_
  funext a; match a with | ⟨0, _⟩ => rfl | ⟨1, _⟩ => rfl

/-- The maximum over the 1024 lanes of a row, from `-∞`. -/
theorem rowmax_apply (src : FVec Ideal S512x1024 .f32) (h : S512x1024.Reduces [1] S512) (hφ : FKind.Formats .f32)
    (hacc : (0xFF800000#32 : BitVec 32) = FKind.maximumf.neutral .f32 hφ) (r : Fin 512) :
    multiReduction .maximumf [1] S512 src 0xFF800000#32 h hφ hacc (ix1 r)
      = (Finset.univ : Finset (Fin 1024)).fold max (Ideal.ofBits .f32 0xFF800000#32) (fun u => src (ix2 r u)) := by
  refine (Ideal.multiReduction_maximumf_single src _ h hφ hacc (ix1 r)).trans ?_
  refine congrArg (Finset.fold max _ · _) ?_
  funext u
  refine congrArg src ?_
  funext a; match a with | ⟨0, _⟩ => rfl | ⟨1, _⟩ => rfl

/-! ## The two matrix products into a zero accumulator -/

theorem rows_lhs0 (i : S512x1024.Idx) (q : dot_S512x1024_S1024x1024_S512x1024_1_1_0_0_n_n.contr.Idx) : (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem rows_lhs1 (i : S512x1024.Idx) (q : dot_S512x1024_S1024x1024_S512x1024_1_1_0_0_n_n.contr.Idx) : (dot_S512x1024_S1024x1024_S512x1024_1_1_0_0_n_n.lhsIdx i q 1).val = (q ⟨0, by decide⟩).val :=
  dot_S512x1024_S1024x1024_S512x1024_1_1_0_0_n_n.lhsIdx_val_of_single rfl i q
theorem rows_rhs0 (i : S512x1024.Idx) (q : dot_S512x1024_S1024x1024_S512x1024_1_1_0_0_n_n.contr.Idx) : (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rows_rhs1 (i : S512x1024.Idx) (q : dot_S512x1024_S1024x1024_S512x1024_1_1_0_0_n_n.contr.Idx) : (dot_S512x1024_S1024x1024_S512x1024_1_1_0_0_n_n.rhsIdx i q 1).val = (q ⟨0, by decide⟩).val :=
  dot_S512x1024_S1024x1024_S512x1024_1_1_0_0_n_n.rhsIdx_val_of_single rfl i q

/-- Rows against rows: `a`'s row `r` against `b`'s row `u`, summed over the shared last axis. -/
theorem matmul_rows_apply (a : FVec Ideal S512x1024 .bf16) (b : FVec Ideal S1024x1024 .bf16) (r : Fin 512) (u : Fin 1024) :
    matmul dot_S512x1024_S1024x1024_S512x1024_1_1_0_0_n_n none a b (constant S512x1024 .f32 0x00000000#32) (ix2 r u)
      = ∑ e : Fin 1024, a (ix2 r e) * b (ix2 u e) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r u) ((contrEquiv1 dot_S512x1024_S1024x1024_S512x1024_1_1_0_0_n_n 1024 rfl rfl).symm k) = ix2 r k := funext fun ax => Fin.ext (by
    match ax with
    | ⟨0, _⟩ => exact rows_lhs0 _ _
    | ⟨1, _⟩ => exact (rows_lhs1 _ _).trans hk)
  have er : dot_S512x1024_S1024x1024_S512x1024_1_1_0_0_n_n.rhsIdx (ix2 r u) ((contrEquiv1 dot_S512x1024_S1024x1024_S512x1024_1_1_0_0_n_n 1024 rfl rfl).symm k) = ix2 u k := funext fun ax => Fin.ext (by
    match ax with
    | ⟨0, _⟩ => exact rows_rhs0 _ _
    | ⟨1, _⟩ => exact (rows_rhs1 _ _).trans hk)
  rw [el, er]

theorem plain_lhs0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem plain_lhs1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem plain_rhs0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem plain_rhs1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Rows against columns: `a`'s row `r` against `b`'s column `d`. -/
theorem matmul_plain_apply (a : FVec Ideal S512x1024 .bf16) (b : FVec Ideal S1024x1024 .bf16) (r : Fin 512) (d : Fin 1024) :
    matmul dot_S512x1024_S1024x1024_S512x1024_1_0_0_1_n_n none a b (constant S512x1024 .f32 0x00000000#32) (ix2 r d)
      = ∑ u : Fin 1024, a (ix2 r u) * b (ix2 u d) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r d) ((contrEquiv1 dot_S512x1024_S1024x1024_S512x1024_1_0_0_1_n_n 1024 rfl rfl).symm k) = ix2 r k := funext fun ax => Fin.ext (by
    match ax with
    | ⟨0, _⟩ => exact plain_lhs0 _ _
    | ⟨1, _⟩ => exact (plain_lhs1 _ _).trans hk)
  have er : dot_S512x1024_S1024x1024_S512x1024_1_0_0_1_n_n.rhsIdx (ix2 r d) ((contrEquiv1 dot_S512x1024_S1024x1024_S512x1024_1_0_0_1_n_n 1024 rfl rfl).symm k) = ix2 k d := funext fun ax => Fin.ext (by
    match ax with
    | ⟨0, _⟩ => exact (plain_rhs0 _ _).trans hk
    | ⟨1, _⟩ => exact plain_rhs1 _ _)
  rw [el, er]

/-! ## The step's payloads, index by index -/

section Step

variable (q : Vec Ideal S1x512x1024 .bf16) (k : Vec Ideal S1x1024x1024 .bf16)

/-- The score of query row `r` against key row `u`: their inner product times `2⁻⁵`. -/
def sc (r : Fin 512) (u : Fin 1024) : EReal :=
  (∑ e : Fin 1024, q (ix3 (0 : Fin 1) r e) * k (ix3 (0 : Fin 1) u e)) * Ideal.ofBits .f32 0x3D000000#32

theorem pay7_apply (r : Fin 512) (u : Fin 1024) : k1_pay7 (F := Ideal) q k (ix2 r u) = sc q k r u := by
  unfold k1_pay7 sc
  try dsimp only
  refine (mulf_apply _ _ _).trans ?_
  refine congrArg₂ (· * ·) ?_ rfl
  refine (matmul_rows_apply _ _ r u).trans ?_
  exact Finset.sum_congr rfl fun e _ => by rw [cast_q_apply, cast_k_apply]

/-- The new running maximum of row `r`: the old one against the block's row maximum. -/
def mnew (m : Vec Ideal S512x1 .f32) (r : Fin 512) : EReal :=
  max (m (ix2 r (0 : Fin 1))) ((Finset.univ : Finset (Fin 1024)).fold max (Ideal.ofBits .f32 0xFF800000#32) (fun u => sc q k r u))

theorem pay8_apply (m : Vec Ideal S512x1 .f32) (r : Fin 512) (z : Fin 1) : k1_pay8 (F := Ideal) q k m (ix2 r z) = mnew q k m r := by
  obtain rfl : z = 0 := Subsingleton.elim _ _
  unfold k1_pay8 mnew
  try dsimp only
  refine (maximumf_apply _ _ _).trans ?_
  refine congrArg (max (m (ix2 r (0 : Fin 1)))) ?_
  refine (cast_col_apply _ _ r 0).trans ?_
  refine (rowmax_apply _ _ _ _ r).trans ?_
  exact congrArg (Finset.fold max _ · _) (funext fun u => pay7_apply q k r u)

/-- The rescaling factor of row `r`: `exp (old maximum − new maximum)`. -/
theorem pay9_apply (m m' : Vec Ideal S512x1 .f32) (r : Fin 512) (z : Fin 1) :
    k1_pay9 (F := Ideal) q k m m' (ix2 r z) = Ideal.exp (m' (ix2 r (0 : Fin 1)) - mnew q k m r) := by
  obtain rfl : z = 0 := Subsingleton.elim _ _
  unfold k1_pay9
  try dsimp only
  show Ideal.exp (m' (ix2 r 0) - k1_pay8 (F := Ideal) q k m (ix2 r 0)) = _
  rw [pay8_apply]

/-- The weight of key `u` for row `r`: `exp (score − new maximum)`. -/
theorem pay10_apply (m : Vec Ideal S512x1 .f32) (r : Fin 512) (u : Fin 1024) :
    k1_pay10 (F := Ideal) q k m (ix2 r u) = Ideal.exp (sc q k r u - mnew q k m r) := by
  unfold k1_pay10
  try dsimp only
  show Ideal.exp (k1_pay7 (F := Ideal) q k (ix2 r u) - broadcastTo S512x1024 (k1_pay8 (F := Ideal) q k m) broadcasts_S512x1_S512x1024 (ix2 r u)) = _
  rw [pay7_apply, bcast_col_apply, pay8_apply]

/-- The new running denominator of row `r`. -/
theorem pay11_apply (m m' l : Vec Ideal S512x1 .f32) (r : Fin 512) (z : Fin 1) :
    k1_pay11 (F := Ideal) q k m m' l (ix2 r z)
      = Ideal.exp (m' (ix2 r (0 : Fin 1)) - mnew q k m r) * l (ix2 r (0 : Fin 1)) + ∑ u : Fin 1024, Ideal.exp (sc q k r u - mnew q k m r) := by
  obtain rfl : z = 0 := Subsingleton.elim _ _
  unfold k1_pay11
  try dsimp only
  rw [shapeCast_self]
  refine (addf_apply _ _ _).trans ?_
  refine congrArg₂ (· + ·) ?_ ?_
  · refine (mulf_apply _ _ _).trans ?_
    rw [pay9_apply]
  · refine (cast_col_apply _ _ r 0).trans ?_
    refine (rowsum_apply _ _ _ _ r).trans ?_
    exact Finset.sum_congr rfl fun u _ => pay10_apply q k m r u

/-- The old running numerator rescaled. -/
theorem pay12_apply (m m' : Vec Ideal S512x1 .f32) (acc : Vec Ideal S512x1024 .f32) (r : Fin 512) (d : Fin 1024) :
    k1_pay12 (F := Ideal) q k m m' acc (ix2 r d) = Ideal.exp (m' (ix2 r (0 : Fin 1)) - mnew q k m r) * acc (ix2 r d) := by
  unfold k1_pay12
  try dsimp only
  refine (mulf_apply _ _ _).trans ?_
  rw [bcast_col_apply, pay9_apply]

/-- The weights again (the rounding to bf16 is the identity on the extended reals). -/
theorem pay13_apply (m : Vec Ideal S512x1 .f32) (r : Fin 512) (u : Fin 1024) :
    k1_pay13 (F := Ideal) q k m (ix2 r u) = Ideal.exp (sc q k r u - mnew q k m r) := by
  unfold k1_pay13
  try dsimp only
  exact (truncf_apply (ψ := .bf16) _ bitsLt_bf16_f32 _).trans (pay10_apply q k m r u)

/-- The new running numerator: what was kept plus the weights against the block's rows. -/
theorem pay1_apply (v30 : FVec Ideal S512x1024 .f32) (v31 : FVec Ideal S512x1024 .bf16) (r : Fin 512) (d : Fin 1024) :
    k1_pay1 (F := Ideal) v30 v31 k (ix2 r d) = v30 (ix2 r d) + ∑ u : Fin 1024, v31 (ix2 r u) * k (ix3 (0 : Fin 1) u d) := by
  unfold k1_pay1
  try dsimp only
  rw [shapeCast_self]
  refine (addf_apply _ _ _).trans ?_
  refine congrArg (v30 (ix2 r d) + ·) ?_
  refine (matmul_plain_apply _ _ r d).trans ?_
  exact Finset.sum_congr rfl fun u _ => by rw [cast_k_apply]

theorem pay2_eq (v13 : FVec Ideal S512x1 .f32) : k1_pay2 (F := Ideal) v13 = v13 := by
  unfold k1_pay2
  try dsimp only
  rw [shapeCast_self]

end Step

/-- The output block's row: the numerator times the reciprocal of the denominator, against `vo`. -/
theorem pay3_apply (acc : Vec Ideal S512x1024 .f32) (l : Vec Ideal S512x1 .f32) (vo : Vec Ideal S1024x1024 .bf16) (z : Fin 1) (r : Fin 512) (e : Fin 1024) :
    k1_pay3 (F := Ideal) acc l vo (ix3 z r e)
      = ∑ d : Fin 1024, (acc (ix2 r d) * Ideal.div (Ideal.ofBits .f32 0x3F800000#32) (l (ix2 r (0 : Fin 1)))) * vo (ix2 d e) := by
  unfold k1_pay3
  try dsimp only
  refine (cast_out_apply _ _ z r e).trans ?_
  refine (matmul_plain_apply _ _ r e).trans ?_
  refine Finset.sum_congr rfl fun d _ => ?_
  rw [shapeCast_self]
  refine congrArg (· * vo (ix2 d e)) ?_
  refine (truncf_apply (ψ := .bf16) _ bitsLt_bf16_f32 _).trans ?_
  refine (mulf_apply _ _ _).trans ?_
  rw [bcast_col_apply]
  rfl

/-- The three initial scratch contents: `-∞`, `0`, `0`. -/
theorem pay4_apply (i : S512x1.Idx) : k1_pay4 (F := Ideal) i = Ideal.ofBits .f32 0xFF800000#32 := by
  unfold k1_pay4; (try dsimp only); rw [shapeCast_self]; rfl
theorem pay5_apply (i : S512x1.Idx) : k1_pay5 (F := Ideal) i = Ideal.ofBits .f32 0x00000000#32 := by
  unfold k1_pay5; (try dsimp only); rw [shapeCast_self]; rfl
theorem pay6_apply (i : S512x1024.Idx) : k1_pay6 (F := Ideal) i = Ideal.ofBits .f32 0x00000000#32 := by
  unfold k1_pay6; (try dsimp only); rw [shapeCast_self]; rfl

end Cert.KernelIdeal.HandValue

end
-- ==== Proof.Softmax.lean ====
/-
  The online softmax over the reals. A row's keys arrive in four blocks; the running maximum m, the running
  normaliser l and the running weighted sum acc are rescaled by exp (m_old − m_new) at each block. After the last
  block acc / l is the softmax-weighted average over all keys.
-/
import Mathlib

noncomputable section

open scoped BigOperators
open Finset

namespace Cert.Attn.Online

/-- The carried state of one row: running maximum, normaliser, weighted sum. -/
structure St where
  m : ℝ
  l : ℝ
  acc : ℝ

section
variable {κ : Type} [Fintype κ] [Nonempty κ]

/-- A block's largest score. -/
def bmax (sj : κ → ℝ) : ℝ := univ.sup' univ_nonempty sj

/-- The state after the first block (what the step from (−∞, 0, 0) leaves, since exp (−∞) = 0). -/
def init (sj vj : κ → ℝ) : St :=
  ⟨bmax sj, ∑ u, Real.exp (sj u - bmax sj), ∑ u, Real.exp (sj u - bmax sj) * vj u⟩

/-- One later block. -/
def step (p : St) (sj vj : κ → ℝ) : St :=
  ⟨max p.m (bmax sj),
   Real.exp (p.m - max p.m (bmax sj)) * p.l + ∑ u, Real.exp (sj u - max p.m (bmax sj)),
   Real.exp (p.m - max p.m (bmax sj)) * p.acc + ∑ u, Real.exp (sj u - max p.m (bmax sj)) * vj u⟩

/-- The state after four blocks. -/
def st3 (s v : Fin 4 → κ → ℝ) : St :=
  step (step (step (init (s 0) (v 0)) (s 1) (v 1)) (s 2) (v 2)) (s 3) (v 3)

end

/-- The invariant: over the keys A seen so far, m is the maximum, l and acc the sums shifted by m. -/
def Inv (A : Type) [Fintype A] [Nonempty A] (sA vA : A → ℝ) (p : St) : Prop :=
  p.m = univ.sup' univ_nonempty sA ∧ p.l = ∑ a, Real.exp (sA a - p.m) ∧ p.acc = ∑ a, Real.exp (sA a - p.m) * vA a

/-- The global maximum of a score family. -/
def gmax {ι : Type} [Fintype ι] [Nonempty ι] (S : ι → ℝ) : ℝ := univ.sup' univ_nonempty S
/-- The softmax normaliser. -/
def Z {ι : Type} [Fintype ι] [Nonempty ι] (S : ι → ℝ) : ℝ := ∑ a, Real.exp (S a - gmax S)
/-- The softmax-weighted average. -/
def avg {ι : Type} [Fintype ι] [Nonempty ι] (S V : ι → ℝ) : ℝ := ∑ a, Real.exp (S a - gmax S) / Z S * V a

theorem Z_pos {ι : Type} [Fintype ι] [Nonempty ι] (S : ι → ℝ) : 0 < Z S :=
  Finset.sum_pos (fun a _ => Real.exp_pos _) univ_nonempty

section
variable {κ : Type} [Fintype κ] [Nonempty κ]

theorem init_inv (sj vj : κ → ℝ) : Inv κ sj vj (init sj vj) := ⟨rfl, rfl, rfl⟩

theorem step_inv {A : Type} [Fintype A] [Nonempty A] (sA vA : A → ℝ) (p : St) (h : Inv A sA vA p) (sj vj : κ → ℝ) :
    Inv (A ⊕ κ) (Sum.elim sA sj) (Sum.elim vA vj) (step p sj vj) := by
  obtain ⟨hm, hl, hacc⟩ := h
  have hm' : max p.m (bmax sj) = univ.sup' univ_nonempty (Sum.elim sA sj) := by
    apply le_antisymm
    · apply max_le
      · rw [hm]
        exact Finset.sup'_le _ _ fun a _ => Finset.le_sup' (Sum.elim sA sj) (mem_univ (Sum.inl a))
      · exact Finset.sup'_le _ _ fun u _ => Finset.le_sup' (Sum.elim sA sj) (mem_univ (Sum.inr u))
    · refine Finset.sup'_le _ _ fun x _ => ?_
      rcases x with a | u
      · exact le_max_of_le_left (hm ▸ Finset.le_sup' sA (mem_univ a))
      · exact le_max_of_le_right (Finset.le_sup' sj (mem_univ u))
  refine ⟨hm', ?_, ?_⟩
  · show Real.exp (p.m - max p.m (bmax sj)) * p.l + ∑ u, Real.exp (sj u - max p.m (bmax sj))
      = ∑ x : A ⊕ κ, Real.exp (Sum.elim sA sj x - max p.m (bmax sj))
    rw [Fintype.sum_sum_type, hl, Finset.mul_sum]
    congr 1
    refine Finset.sum_congr rfl fun a _ => ?_
    rw [← Real.exp_add]
    congr 1
    simp only [Sum.elim_inl]
    ring
  · show Real.exp (p.m - max p.m (bmax sj)) * p.acc + ∑ u, Real.exp (sj u - max p.m (bmax sj)) * vj u
      = ∑ x : A ⊕ κ, Real.exp (Sum.elim sA sj x - max p.m (bmax sj)) * Sum.elim vA vj x
    rw [Fintype.sum_sum_type, hacc, Finset.mul_sum]
    congr 1
    refine Finset.sum_congr rfl fun a _ => ?_
    rw [← mul_assoc, ← Real.exp_add]
    simp only [Sum.elim_inl]
    congr 2
    ring

end

/-- The invariant moves along a bijection of the key sets. -/
theorem Inv.equiv {A B : Type} [Fintype A] [Nonempty A] [Fintype B] [Nonempty B] (e : A ≃ B) (sB vB : B → ℝ) (p : St)
    (h : Inv A (fun a => sB (e a)) (fun a => vB (e a)) p) : Inv B sB vB p := by
  obtain ⟨hm, hl, hacc⟩ := h
  refine ⟨hm.trans ?_, ?_, ?_⟩
  · apply le_antisymm
    · exact Finset.sup'_le _ _ fun a _ => Finset.le_sup' sB (mem_univ (e a))
    · refine Finset.sup'_le _ _ fun b _ => ?_
      calc sB b = sB (e (e.symm b)) := by rw [Equiv.apply_symm_apply]
        _ ≤ _ := Finset.le_sup' (fun a => sB (e a)) (mem_univ (e.symm b))
  · rw [hl]; exact Equiv.sum_comp e fun b => Real.exp (sB b - p.m)
  · rw [hacc]; exact Equiv.sum_comp e fun b => Real.exp (sB b - p.m) * vB b

/-- Under the invariant, acc / l is the softmax-weighted average. -/
theorem Inv.avg_eq {A : Type} [Fintype A] [Nonempty A] (sA vA : A → ℝ) (p : St) (h : Inv A sA vA p) :
    p.m = gmax sA ∧ p.l = Z sA ∧ p.acc * (1 / p.l) = avg sA vA := by
  obtain ⟨hm, hl, hacc⟩ := h
  have hm' : p.m = gmax sA := hm
  have hl' : p.l = Z sA := by rw [hl, hm']; rfl
  refine ⟨hm', hl', ?_⟩
  rw [hacc, hl', hm']
  unfold avg
  rw [Finset.sum_mul]
  refine Finset.sum_congr rfl fun a _ => ?_
  ring

section
variable {κ : Type} [Fintype κ] [Nonempty κ]

/-- Four blocks of κ keys, side by side, as block index and key. -/
def blocks : ((κ ⊕ κ) ⊕ κ) ⊕ κ ≃ Fin 4 × κ where
  toFun := Sum.elim (Sum.elim (Sum.elim (fun u => (0, u)) (fun u => (1, u))) (fun u => (2, u))) (fun u => (3, u))
  invFun q := match q with
    | (⟨0, _⟩, u) => Sum.inl (Sum.inl (Sum.inl u))
    | (⟨1, _⟩, u) => Sum.inl (Sum.inl (Sum.inr u))
    | (⟨2, _⟩, u) => Sum.inl (Sum.inr u)
    | (⟨3, _⟩, u) => Sum.inr u
  left_inv := by rintro (((u | u) | u) | u) <;> rfl
  right_inv := by
    rintro ⟨i, u⟩
    fin_cases i <;> rfl

/-- After the four blocks the invariant holds over all keys, indexed by block and key. -/
theorem st3_inv (s v : Fin 4 → κ → ℝ) :
    Inv (Fin 4 × κ) (fun q => s q.1 q.2) (fun q => v q.1 q.2) (st3 s v) := by
  have h := step_inv _ _ _ (step_inv _ _ _ (step_inv _ _ _ (init_inv (s 0) (v 0)) (s 1) (v 1)) (s 2) (v 2)) (s 3) (v 3)
  refine Inv.equiv blocks _ _ _ ?_
  have es : (fun a => (fun q : Fin 4 × κ => s q.1 q.2) (blocks a))
      = Sum.elim (Sum.elim (Sum.elim (s 0) (s 1)) (s 2)) (s 3) := by
    funext a; rcases a with ((u | u) | u) | u <;> rfl
  have ev : (fun a => (fun q : Fin 4 × κ => v q.1 q.2) (blocks a))
      = Sum.elim (Sum.elim (Sum.elim (v 0) (v 1)) (v 2)) (v 3) := by
    funext a; rcases a with ((u | u) | u) | u <;> rfl
  rw [es, ev]
  exact h

/-- The online recurrence over four blocks that tile a key set ι computes the softmax-weighted average over ι:
    the final maximum is the global one, the final normaliser is Z, and acc · (1 / l) is the average. -/
theorem online_softmax {ι : Type} [Fintype ι] [Nonempty ι] (e : Fin 4 × κ ≃ ι) (S V : ι → ℝ) :
    (st3 (fun i u => S (e (i, u))) (fun i u => V (e (i, u)))).m = gmax S
    ∧ (st3 (fun i u => S (e (i, u))) (fun i u => V (e (i, u)))).l = Z S
    ∧ (st3 (fun i u => S (e (i, u))) (fun i u => V (e (i, u)))).acc
        * (1 / (st3 (fun i u => S (e (i, u))) (fun i u => V (e (i, u)))).l) = avg S V :=
  Inv.avg_eq S V _ (Inv.equiv e S V _ (st3_inv (fun i u => S (e (i, u))) (fun i u => V (e (i, u)))))

end

end Cert.Attn.Online

end
-- ==== Proof.KI.Step.lean ====
/-
  One attention step on rows of real numbers. When the query row, the key rows and the running state of a row are
  real, every quantity the step computes for that row is real and is the textbook expression: the scores
  `s u = (∑ e, q e · k u e) / 32`, the new maximum `max m (max_u s u)`, the new denominator
  `exp (m − m') · l + ∑ u, exp (s u − m')` and the new numerator `exp (m − m') · a d + ∑ u, exp (s u − m') · k u d`.
  From the initial state `(−∞, 0, 0)` the rescaling factor is `exp (−∞) = 0` and `0 · 0 = 0`, so the first step
  leaves the block's own maximum, denominator and numerator.
-/
import proofs.«165870_j3324304687449_2_alg».proof.Proof.KI.Pay
import proofs.«165870_j3324304687449_2_alg».proof.Proof.Softmax

noncomputable section

namespace Cert.KernelIdeal.HandValue

open Cert.KernelIdeal Cert.KernelIdeal.Gen Idealize.ShloMosaic Idealize.ShloMosaic.ValueIdx

/-! ## The literals -/

theorem ofBits_scale : Ideal.ofBits .f32 0x3D000000#32 = ((1 / 32 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_neg_inf : Ideal.ofBits .f32 0xFF800000#32 = (⊥ : EReal) := by
  simp [Ideal.ofBits, Ideal.ieee]
theorem ofBits_zero : Ideal.ofBits .f32 0x00000000#32 = ((0 : ℝ) : EReal) := by
  simp [Ideal.ofBits, Ideal.ieee]

/-! ## Coercions through finite sums and maxima -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

theorem fold_max_coe {ι : Type} [Fintype ι] [Nonempty ι] (f : ι → ℝ) :
    (Finset.univ : Finset ι).fold max (⊥ : EReal) (fun u => (f u : EReal))
      = ((Finset.univ.sup' Finset.univ_nonempty f : ℝ) : EReal) := by
  have h1 : (Finset.univ : Finset ι).fold max (⊥ : EReal) (fun u => (f u : EReal)) = Finset.univ.sup (fun u => (f u : EReal)) := rfl
  rw [h1, ← Finset.sup'_eq_sup Finset.univ_nonempty]
  exact (Finset.comp_sup'_eq_sup'_comp Finset.univ_nonempty (fun x : ℝ => (x : EReal)) (fun a b => coe_max a b)).symm

theorem exp_coe_sub (a b : ℝ) : Ideal.exp ((a : EReal) - (b : EReal)) = ((Real.exp (a - b) : ℝ) : EReal) := by
  rw [← EReal.coe_sub]; rfl

theorem exp_bot_sub (b : ℝ) : Ideal.exp ((⊥ : EReal) - (b : EReal)) = ((0 : ℝ) : EReal) := by
  rw [EReal.bot_sub]; simp

/-! ## The step on a row of reals -/

section Row

variable (q : Vec Ideal S1x512x1024 .bf16) (k : Vec Ideal S1x1024x1024 .bf16) (r : Fin 512)
variable (qr : Fin 1024 → ℝ) (kr : Fin 1024 → Fin 1024 → ℝ)

/-- The real score of key row `u`. -/
def sR (u : Fin 1024) : ℝ := (∑ e : Fin 1024, qr e * kr u e) * (1 / 32)

theorem sc_real (hq : ∀ e, q (ix3 (0 : Fin 1) r e) = (qr e : EReal)) (hk : ∀ u e, k (ix3 (0 : Fin 1) u e) = (kr u e : EReal)) (u : Fin 1024) :
    sc q k r u = (sR qr kr u : EReal) := by
  unfold sc sR
  rw [ofBits_scale, EReal.coe_mul, coe_sum]
  refine congrArg (· * _) (Finset.sum_congr rfl fun e _ => ?_)
  rw [hq, hk, EReal.coe_mul]

/-- The block's own row maximum. -/
def bmax : ℝ := Finset.univ.sup' Finset.univ_nonempty (sR qr kr)

theorem mnew_real (hq : ∀ e, q (ix3 (0 : Fin 1) r e) = (qr e : EReal)) (hk : ∀ u e, k (ix3 (0 : Fin 1) u e) = (kr u e : EReal))
    (m : Vec Ideal S512x1 .f32) (mr : ℝ) (hm : m (ix2 r (0 : Fin 1)) = (mr : EReal)) :
    mnew q k m r = ((max mr (bmax qr kr) : ℝ) : EReal) := by
  unfold mnew bmax
  rw [hm, ofBits_neg_inf, coe_max]
  refine congrArg (max (mr : EReal)) ?_
  rw [show (fun u => sc q k r u) = fun u => (sR qr kr u : EReal) from funext (sc_real q k r qr kr hq hk)]
  exact fold_max_coe _

theorem mnew_init (hq : ∀ e, q (ix3 (0 : Fin 1) r e) = (qr e : EReal)) (hk : ∀ u e, k (ix3 (0 : Fin 1) u e) = (kr u e : EReal))
    (m : Vec Ideal S512x1 .f32) (hm : m (ix2 r (0 : Fin 1)) = (⊥ : EReal)) :
    mnew q k m r = ((bmax qr kr : ℝ) : EReal) := by
  unfold mnew bmax
  rw [hm, ofBits_neg_inf, max_eq_right bot_le]
  rw [show (fun u => sc q k r u) = fun u => (sR qr kr u : EReal) from funext (sc_real q k r qr kr hq hk)]
  exact fold_max_coe _

end Row

/-! ## A row's state through a step -/

section RowState

open Cert.Attn.Online

variable (q : Vec Ideal S1x512x1024 .bf16) (k : Vec Ideal S1x1024x1024 .bf16) (r : Fin 512)
variable (qr : Fin 1024 → ℝ) (kr : Fin 1024 → Fin 1024 → ℝ)

/-- The three scratch vectors after a step on the three before it. -/
def stepV (s : Vec Ideal S512x1 .f32 × Vec Ideal S512x1 .f32 × Vec Ideal S512x1024 .f32) :
    Vec Ideal S512x1 .f32 × Vec Ideal S512x1 .f32 × Vec Ideal S512x1024 .f32 :=
  (k1_pay2 (k1_pay8 q k s.1), k1_pay11 q k s.1 s.1 s.2.1, k1_pay1 (k1_pay12 q k s.1 s.1 s.2.2) (k1_pay13 q k s.1) k)

/-- The three scratch vectors as the first key block finds them: `-∞`, `0`, `0`. -/
def initV : Vec Ideal S512x1 .f32 × Vec Ideal S512x1 .f32 × Vec Ideal S512x1024 .f32 :=
  (k1_pay4 (F := Ideal), k1_pay5 (F := Ideal), k1_pay6 (F := Ideal))

/-- Row `r` of the three scratch vectors holds the real state `P d` (its maximum and denominator the same for every
    value column `d`, its numerator that column's). -/
def RowSt (s : Vec Ideal S512x1 .f32 × Vec Ideal S512x1 .f32 × Vec Ideal S512x1024 .f32) (P : Fin 1024 → St) : Prop :=
  (∀ d, s.1 (ix2 r (0 : Fin 1)) = ((P d).m : EReal)) ∧ (∀ d, s.2.1 (ix2 r (0 : Fin 1)) = ((P d).l : EReal))
    ∧ ∀ d, s.2.2 (ix2 r d) = ((P d).acc : EReal)

variable (hq : ∀ e, q (ix3 (0 : Fin 1) r e) = (qr e : EReal)) (hk : ∀ u e, k (ix3 (0 : Fin 1) u e) = (kr u e : EReal))
include hq hk

/-- The first key block: from `(-∞, 0, 0)` the row holds the block's own maximum, denominator and numerators. -/
theorem stepV_init_row : RowSt r (stepV q k initV) (fun d => init (sR qr kr) (fun u => kr u d)) := by
  have hm0 : (initV.1 : Vec Ideal S512x1 .f32) (ix2 r (0 : Fin 1)) = (⊥ : EReal) := (pay4_apply (ix2 r (0 : Fin 1))).trans ofBits_neg_inf
  have hmn := mnew_init q k r qr kr hq hk initV.1 hm0
  have hexp0 : Ideal.exp ((initV.1 : Vec Ideal S512x1 .f32) (ix2 r (0 : Fin 1)) - mnew q k initV.1 r) = ((0 : ℝ) : EReal) := by
    rw [hm0, hmn]; exact exp_bot_sub _
  have hw : ∀ u, Ideal.exp (sc q k r u - mnew q k initV.1 r) = ((Real.exp (sR qr kr u - Cert.Attn.Online.bmax (sR qr kr)) : ℝ) : EReal) := fun u => by
    rw [sc_real q k r qr kr hq hk, hmn]; exact exp_coe_sub _ _
  refine ⟨fun d => ?_, fun d => ?_, fun d => ?_⟩
  · show k1_pay2 (k1_pay8 (F := Ideal) q k initV.1) (ix2 r 0) = _
    rw [pay2_eq, pay8_apply, hmn]; rfl
  · show k1_pay11 (F := Ideal) q k initV.1 initV.1 initV.2.1 (ix2 r 0) = _
    rw [pay11_apply, hexp0, show (initV.2.1 : Vec Ideal S512x1 .f32) (ix2 r (0 : Fin 1)) = ((0 : ℝ) : EReal) from (pay5_apply (ix2 r (0 : Fin 1))).trans ofBits_zero]
    rw [← EReal.coe_mul, mul_zero, Finset.sum_congr rfl fun u _ => hw u, ← coe_sum, ← EReal.coe_add, zero_add]
    rfl
  · show k1_pay1 (F := Ideal) (k1_pay12 q k initV.1 initV.1 initV.2.2) (k1_pay13 q k initV.1) k (ix2 r d) = _
    rw [pay1_apply, pay12_apply, hexp0, show (initV.2.2 : Vec Ideal S512x1024 .f32) (ix2 r d) = ((0 : ℝ) : EReal) from (pay6_apply (ix2 r d)).trans ofBits_zero]
    rw [← EReal.coe_mul, mul_zero, Finset.sum_congr rfl fun u _ => by rw [pay13_apply, hw u, hk u d, ← EReal.coe_mul], ← coe_sum, ← EReal.coe_add, zero_add]
    rfl

/-- A later key block: a real row state goes to the online-softmax step of it. -/
theorem stepV_row (s : Vec Ideal S512x1 .f32 × Vec Ideal S512x1 .f32 × Vec Ideal S512x1024 .f32) (P : Fin 1024 → St)
    (hP : ∀ d d', (P d).m = (P d').m) (h : RowSt r s P) :
    RowSt r (stepV q k s) (fun d => step (P d) (sR qr kr) (fun u => kr u d)) := by
  obtain ⟨hm, hl, ha⟩ := h
  have hmn : ∀ d, mnew q k s.1 r = ((max (P d).m (Cert.Attn.Online.bmax (sR qr kr)) : ℝ) : EReal) := fun d =>
    mnew_real q k r qr kr hq hk s.1 (P d).m (hm d)
  have hexp : ∀ d, Ideal.exp (s.1 (ix2 r (0 : Fin 1)) - mnew q k s.1 r)
      = ((Real.exp ((P d).m - max (P d).m (Cert.Attn.Online.bmax (sR qr kr))) : ℝ) : EReal) := fun d => by
    rw [hm d, hmn d]; exact exp_coe_sub _ _
  have hw : ∀ d u, Ideal.exp (sc q k r u - mnew q k s.1 r)
      = ((Real.exp (sR qr kr u - max (P d).m (Cert.Attn.Online.bmax (sR qr kr))) : ℝ) : EReal) := fun d u => by
    rw [sc_real q k r qr kr hq hk, hmn d]; exact exp_coe_sub _ _
  refine ⟨fun d => ?_, fun d => ?_, fun d => ?_⟩
  · show k1_pay2 (k1_pay8 (F := Ideal) q k s.1) (ix2 r 0) = _
    rw [pay2_eq, pay8_apply, hmn d]; rfl
  · show k1_pay11 (F := Ideal) q k s.1 s.1 s.2.1 (ix2 r 0) = _
    rw [pay11_apply, hexp d, hl d, ← EReal.coe_mul, Finset.sum_congr rfl fun u _ => hw d u, ← coe_sum, ← EReal.coe_add]
    rfl
  · show k1_pay1 (F := Ideal) (k1_pay12 q k s.1 s.1 s.2.2) (k1_pay13 q k s.1) k (ix2 r d) = _
    rw [pay1_apply, pay12_apply, hexp d, ha d, ← EReal.coe_mul,
      Finset.sum_congr rfl fun u _ => by rw [pay13_apply, hw d u, hk u d, ← EReal.coe_mul], ← coe_sum, ← EReal.coe_add]
    rfl

end RowState

end Cert.KernelIdeal.HandValue

end
-- ==== Proof.KI.Bridge.lean ====
/-
  The attention region's scratch contents, point by point, as iterates of the pure step: at a first key block
  (position ≡ 0 mod 4) the step of that point's blocks from `(-∞, 0, 0)`; at any other position the step of that
  point's blocks from what the position before left; and at a last key block (position ≡ 3 mod 4) the output block is
  the numerator times the reciprocal of the denominator against the output projection.
-/
import proofs.«165870_j3324304687449_2_alg».proof.Proof.KI.Pieces
import proofs.«165870_j3324304687449_2_alg».proof.Proof.KI.Step

set_option maxRecDepth 16384

noncomputable section

namespace Cert.KernelIdeal.HandValue

open Idealize.ShloMosaic Idealize.ShloMosaic.TcCoe Idealize.ShloMosaic.ValueIdx
open Idealize.SL.Sem
open Cert.KernelIdeal Cert.KernelIdeal.Gen Cert.KernelIdeal.Hand

variable (V : (c : Dev nD) → (b : Ref sig .tc) → Buf (Elt Ideal) ((c : Thread nD τ).loc b))

/-- The three scratch buffers after the body at position `n`. -/
def scr (c : Dev nD) (n : ℕ) (hn : n < cfg1.N) : Vec Ideal S512x1 .f32 × Vec Ideal S512x1 .f32 × Vec Ideal S512x1024 .f32 :=
  (outsAt1 V c n hn).2

theorem scr_first (c : Dev nD) (t : Fin cfg1.N) (h0 : t.val % 4 = 0) :
    scr V c t.val t.isLt = stepV (iblk1 V c 0 t) (iblk1 V c 1 t) initV := by
  unfold scr
  rw [outsAt1_A V c t h0 (by omega)]
  simp only [sout1_A_0_eq, sout1_A_1_eq, sout1_A_2_eq]
  rfl

theorem scr_next (c : Dev nD) (t : Fin cfg1.N) (h0 : ¬t.val % 4 = 0) :
    scr V c t.val t.isLt
      = stepV (iblk1 V c 0 t) (iblk1 V c 1 t) (scr V c (t.val - 1) (Nat.lt_of_le_of_lt (Nat.sub_le _ _) t.isLt)) := by
  unfold scr
  by_cases h1 : t.val % 4 = 3
  · rw [outsAt1_C V c t h0 h1]
    simp only [sout1_C_0_eq, sout1_C_1_eq, sout1_C_2_eq]
    rfl
  · rw [outsAt1_B V c t h0 h1]
    simp only [sout1_B_0_eq, sout1_B_1_eq, sout1_B_2_eq]
    rfl

theorem out_last (c : Dev nD) (t : Fin cfg1.N) (h1 : t.val % 4 = 3) :
    (outsAt1 V c t.val t.isLt).1
      = k1_pay3 (F := Ideal) (scr V c t.val t.isLt).2.2 (scr V c t.val t.isLt).2.1 (iblk1 V c 2 t) := by
  unfold scr
  rw [outsAt1_C V c t (by omega) h1]
  simp only [out1_C_3_eq, sout1_C_1_eq, sout1_C_2_eq]

end Cert.KernelIdeal.HandValue

end
-- ==== Proof.KI.Rows.lean ====
/-
  A query tile's four key blocks, row by row. Position `n` (≡ 0 mod 4) starts a query tile; positions `n .. n+3` take
  the same 512 projected query rows against the four blocks of 1024 key rows. If row `r` of the query block and
  every key row are real, then after the fourth block row `r` of the scratch buffers holds the online-softmax state
  of the four blocks, and row `r` of the output block is, entry by entry, the sum over the value columns of
  numerator × (1 / denominator) × output projection.
-/
import proofs.«165870_j3324304687449_2_alg».proof.Proof.KI.Bridge

set_option maxRecDepth 16384

noncomputable section

namespace Cert.KernelIdeal.HandValue

open Idealize.ShloMosaic Idealize.ShloMosaic.TcCoe Idealize.ShloMosaic.ValueIdx
open Idealize.SL.Sem
open Cert.KernelIdeal Cert.KernelIdeal.Gen Cert.KernelIdeal.Hand
open Cert.Attn.Online

variable (V : (c : Dev nD) → (b : Ref sig .tc) → Buf (Elt Ideal) ((c : Thread nD τ).loc b))

theorem RowSt.of_eq {r : Fin 512} {s s' : Vec Ideal S512x1 .f32 × Vec Ideal S512x1 .f32 × Vec Ideal S512x1024 .f32}
    {P : Fin 1024 → St} (h : s = s') (H : RowSt r s' P) : RowSt r s P := h ▸ H

theorem scr_succ (c : Dev nD) (n : ℕ) (hn : n + 1 < cfg1.N) (h0 : ¬(n + 1) % 4 = 0) :
    scr V c (n + 1) hn = stepV (iblk1 V c 0 ⟨n + 1, hn⟩) (iblk1 V c 1 ⟨n + 1, hn⟩) (scr V c n (Nat.lt_of_succ_lt hn)) :=
  scr_next V c ⟨n + 1, hn⟩ h0

section Chain

variable (c : Dev nD) (n : ℕ) (hn : n + 3 < cfg1.N) (hmod : n % 4 = 0) (r : Fin 512)
variable (qr : Fin 1024 → ℝ) (kr : Fin 4 → Fin 1024 → Fin 1024 → ℝ)
variable (hq : ∀ (j : ℕ) (hj : j < 4) (e : Fin 1024),
  (iblk1 V c 0 ⟨n + j, by omega⟩ : Vec Ideal S1x512x1024 .bf16) (ix3 (0 : Fin 1) r e) = (qr e : EReal))
variable (hk : ∀ (j : ℕ) (hj : j < 4) (u e : Fin 1024),
  (iblk1 V c 1 ⟨n + j, by omega⟩ : Vec Ideal S1x1024x1024 .bf16) (ix3 (0 : Fin 1) u e) = (kr ⟨j, hj⟩ u e : EReal))
include hmod hq hk

/-- After the fourth key block, row `r` holds the online-softmax state of the four blocks. -/
theorem row_chain :
    RowSt r (scr V c (n + 3) hn) (fun d => st3 (fun j u => sR qr (kr j) u) (fun j u => kr j u d)) := by
  have R0 : RowSt r (scr V c n (by omega)) (fun d => init (sR qr (kr 0)) (fun u => kr 0 u d)) :=
    RowSt.of_eq (scr_first V c ⟨n, by omega⟩ hmod)
      (stepV_init_row _ _ r qr (kr 0) (fun e => hq 0 (by omega) e) (fun u e => hk 0 (by omega) u e))
  have R1 : RowSt r (scr V c (n + 1) (by omega))
      (fun d => step (init (sR qr (kr 0)) (fun u => kr 0 u d)) (sR qr (kr 1)) (fun u => kr 1 u d)) :=
    RowSt.of_eq (scr_succ V c n (by omega) (by omega))
      (stepV_row _ _ r qr (kr 1) (fun e => hq 1 (by omega) e) (fun u e => hk 1 (by omega) u e) _ _ (fun _ _ => rfl) R0)
  have R2 : RowSt r (scr V c (n + 2) (by omega))
      (fun d => step (step (init (sR qr (kr 0)) (fun u => kr 0 u d)) (sR qr (kr 1)) (fun u => kr 1 u d)) (sR qr (kr 2)) (fun u => kr 2 u d)) :=
    RowSt.of_eq (scr_succ V c (n + 1) (by omega) (by omega))
      (stepV_row _ _ r qr (kr 2) (fun e => hq 2 (by omega) e) (fun u e => hk 2 (by omega) u e) _ _ (fun _ _ => rfl) R1)
  exact RowSt.of_eq (scr_succ V c (n + 2) hn (by omega))
      (stepV_row _ _ r qr (kr 3) (fun e => hq 3 (by omega) e) (fun u e => hk 3 (by omega) u e) _ _ (fun _ _ => rfl) R2)

/-- Row `r` of the output block at the tile's last key block. -/
theorem row_out (vor : Fin 1024 → Fin 1024 → ℝ)
    (hvo : ∀ d e, (iblk1 V c 2 ⟨n + 3, hn⟩ : Vec Ideal S1024x1024 .bf16) (ix2 d e) = (vor d e : EReal))
    (hl : ∀ d, (st3 (fun j u => sR qr (kr j) u) (fun j u => kr j u d)).l ≠ 0) (e : Fin 1024) :
    (outsAt1 V c (n + 3) hn).1 (ix3 (0 : Fin 1) r e)
      = ((∑ d : Fin 1024, ((st3 (fun j u => sR qr (kr j) u) (fun j u => kr j u d)).acc
            * (1 / (st3 (fun j u => sR qr (kr j) u) (fun j u => kr j u d)).l)) * vor d e : ℝ) : EReal) := by
  obtain ⟨-, hL, hA⟩ := row_chain V c n hn hmod r qr kr hq hk
  have h3 : (n + 3) % 4 = 3 := by omega
  refine (congrFun (out_last V c ⟨n + 3, hn⟩ h3) (ix3 (0 : Fin 1) r e)).trans ?_
  refine (pay3_apply _ _ _ (0 : Fin 1) r e).trans ?_
  rw [coe_sum]
  refine Finset.sum_congr rfl fun d _ => ?_
  have hA' := hA d
  have hL' := hL d
  dsimp only at hA' hL' ⊢
  rw [hA', hL', hvo d e, ofBits_one, Ideal.div_coe (hl d), ← EReal.coe_mul, ← EReal.coe_mul, ← EReal.coe_mul, one_mul]

end Chain

end Cert.KernelIdeal.HandValue

end
-- ==== Proof.KI.V0.lean ====
import proofs.«165870_j3324304687449_2_alg».proof.Proof.KI.R0
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand
open scoped BigOperators

/-! # The value region 0's body leaves, over the extended reals

At the ideal instance the projection body's one store holds, at row `r` and column `e` of its block, the
inner product of row `r` of the activation block with column `e` of the weight matrix: the two loads and the
store go through whole-shape rectangles, the shape casts add or drop the leading unit axis, the narrowing to
bf16 is the identity on extended reals, and the matrix product into a zero accumulator is the plain sum. -/

/-- The zero offsets of the whole-shape rectangles. -/
theorem hz3 : (![0, 0, 0] : Fin 3 → Nat) = fun _ => 0 := funext fun a => by fin_cases a <;> rfl
theorem hz2 : (![0, 0] : Fin 2 → Nat) = fun _ => 0 := funext fun a => by fin_cases a <;> rfl

/-! ## The operand indices of the product: rows × contraction times contraction × columns -/

theorem lhs_proj_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_proj_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_proj_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_proj_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-! ## The store's payload at an index -/

/-- Row `r`, column `e` of what the body leaves in the output block: the inner product of row `r` of the
    activation block and column `e` of the weights. -/
theorem out0_2_apply (x0 : Vec Ideal S1x1024x1024 .bf16) (x1 : Vec Ideal S1024x1024 .bf16) (r e : Fin 1024) :
    out0_2 (F := Ideal) x0 x1 (ix3 0 r e) = ∑ d : Fin 1024, x0 (ix3 0 r d) * x1 (ix2 d e) := by
  unfold out0_2
  rw [View.canon_unit_zero hz3]
  simp only [View.ld_unit_zero (S := S1x1024x1024) hz3, View.ld_unit_zero (S := S1024x1024) hz2]
  unfold k0_pay1
  rw [shapeCast_ab_1ab_apply, truncf_apply]
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r e) ((contrEquiv1 dot_S1024x1024_S1024x1024_S1024x1024_1_0_0_1_n_n 1024 rfl rfl).symm k) = ix2 r k := funext fun a => Fin.ext (by
    match a with
    | ⟨0, _⟩ => exact lhs_proj_0 _ _
    | ⟨1, _⟩ => exact (lhs_proj_1 _ _).trans hk)
  have er : dot_S1024x1024_S1024x1024_S1024x1024_1_0_0_1_n_n.rhsIdx (ix2 r e) ((contrEquiv1 dot_S1024x1024_S1024x1024_S1024x1024_1_0_0_1_n_n 1024 rfl rfl).symm k) = ix2 k e := funext fun a => Fin.ext (by
    match a with
    | ⟨0, _⟩ => exact (rhs_proj_0 _ _).trans hk
    | ⟨1, _⟩ => exact rhs_proj_1 _ _)
  rw [el, er, shapeCast_1ab_ab_apply, shapeCast_self]

end Cert.KernelIdeal.HandValue

end
-- ==== Proof.KI.Final0.lean ====
import proofs.«165870_j3324304687449_2_alg».proof.Proof.KI.Run
import proofs.«165870_j3324304687449_2_alg».proof.Proof.KI.V0
import proofs.«165870_j3324304687449_2_alg».proof.Proof.Spec
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-! # The contents the two regions are entered from, over the extended reals -/

/-- The three argument arrays as launched, read as arrays of extended reals. -/
abbrev argX (c : Dev nD) : Cert.Attn.Arr3 := m ((c : Thread nD τ).loc main_arg0)
abbrev argQK (c : Dev nD) : Cert.Attn.Mat := m ((c : Thread nD τ).loc main_arg1)
abbrev argVO (c : Dev nD) : Cert.Attn.Mat := m ((c : Thread nD τ).loc main_arg2)

/-! ## The host stretch: three roundings to bf16, each the identity on extended reals -/

theorem V1_main_v0 (c : Dev nD) : (V1 m ρ c main_v0 : Cert.Attn.Arr3) = argX m c := by
  show StableHlo.after hostOps0 (W0 m ρ c) (Proc.devRef .tc main_v0) = _
  after_results
  rfl
theorem V1_main_v1 (c : Dev nD) : (V1 m ρ c main_v1 : Cert.Attn.Mat) = argQK m c := by
  show StableHlo.after hostOps0 (W0 m ρ c) (Proc.devRef .tc main_v1) = _
  after_results
  rfl
theorem V1_main_v2 (c : Dev nD) : (V1 m ρ c main_v2 : Cert.Attn.Mat) = argVO m c := by
  show StableHlo.after hostOps0 (W0 m ρ c) (Proc.devRef .tc main_v2) = _
  after_results
  rfl

/-! # The projection region's output array as one function of the arguments -/

/-- What `main_v3` ends holding: row (b, t) of x times QK. -/
abbrev Gproj (c : Dev nD) : Cert.Attn.Arr3 := fun i => Cert.Attn.proj (argX m c) (argQK m c) (i 0) (i 1) (i 2)

/-- The printed index maps, decided over the grid: the activation window moves with the output window, both stay on
    the last axis' one block, the weight window never moves, and the output's block indices stay in their ranges. -/
theorem idx_facts0 : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_2.index t (2 : Fin 3) = 0
    ∧ win0_1.index t (0 : Fin 2) = 0
    ∧ win0_1.index t (1 : Fin 2) = 0
    ∧ win0_2.index t (0 : Fin 3) ≤ 3
    ∧ win0_2.index t (1 : Fin 3) ≤ 3 :=
  (by decide +kernel : ∀ t : Fin grid0.N, _)

/-- Every block of the output array is some point's. -/
theorem idx_onto0 : ∀ (q0 : Fin 4) (q1 : Fin 4), ∃ t : Fin cfg0.N, win0_2.index t = ![q0.val, q1.val, 0] :=
  (by decide +kernel : ∀ (q0 : Fin 4) (q1 : Fin 4), ∃ t : Fin grid0.N, win0_2.index t = ![q0.val, q1.val, 0])

section Blocks
variable {F : FTy → Type} [FloatOps F]
variable (V : (c : Dev nD) → (b : Ref sig .tc) → Buf (Elt F) ((c : Thread nD τ).loc b))

/-- The activation window's block at point `t`, read at row `r` and column `d`: the array at any index with those
    coordinates — batch the block's first index, row the second index times 1024 plus `r`, column `d`. -/
theorem iblk0_0_apply (c : Dev nD) (t : Fin cfg0.N) (r d : Fin 1024) (i : S4x4096x1024.Idx)
    (h0 : (i 0).val = win0_0.index t (0 : Fin 3)) (h1 : (i 1).val = win0_0.index t (1 : Fin 3) * 1024 + r.val)
    (h2 : (i 2).val = win0_0.index t (2 : Fin 3) * 1024 + d.val) :
    iblk0 V c 0 t (ix3 0 r d) = V c main_v0 i := by
  show V c main_v0 (((cfg0.win 0).blk t).view.emb (ix3 0 r d)) = V c main_v0 i
  refine congrArg _ (funext fun a => Fin.ext ?_)
  match a with
  | ⟨0, _⟩ => show win0_0.index t (0 : Fin 3) * 1 + 1 * 0 = (i 0).val; omega
  | ⟨1, _⟩ => show win0_0.index t (1 : Fin 3) * 1024 + 1 * r.val = (i 1).val; omega
  | ⟨2, _⟩ => show win0_0.index t (2 : Fin 3) * 1024 + 1 * d.val = (i 2).val; omega

/-- The weight window's block at any point is the whole matrix. -/
theorem iblk0_1_apply (c : Dev nD) (t : Fin cfg0.N) (d e : Fin 1024) (i : S1024x1024.Idx)
    (h0 : (i 0).val = win0_1.index t (0 : Fin 2) * 1024 + d.val) (h1 : (i 1).val = win0_1.index t (1 : Fin 2) * 1024 + e.val) :
    iblk0 V c 1 t (ix2 d e) = V c main_v1 i := by
  show V c main_v1 (((cfg0.win 1).blk t).view.emb (ix2 d e)) = V c main_v1 i
  refine congrArg _ (funext fun a => Fin.ext ?_)
  match a with
  | ⟨0, _⟩ => show win0_1.index t (0 : Fin 2) * 1024 + 1 * d.val = (i 0).val; omega
  | ⟨1, _⟩ => show win0_1.index t (1 : Fin 2) * 1024 + 1 * e.val = (i 1).val; omega

end Blocks

/-- What point `t` writes back is block `t` of `Gproj`: at row `r`, column `e` of the block the body leaves the inner
    product of the activation block's row `r` with the weights' column `e`, and the activation block's rows are the
    array's rows the output block covers. -/
theorem flushed0_eq (c : Dev nD) (t : Fin cfg0.N) :
    (dat0 (V1 m ρ) c).flushed 2 t = ((cfg0.win 2).blk t).view.read (Elt Ideal) (Gproj m c) := by
  show (cfg0.win 2).cut (grid0.coords t) ((dat0 (V1 m ρ) c).after 2 t) = _
  rw [after0_2]
  obtain ⟨e0, e1, e2, e3, e4, e5, e6, e7⟩ := idx_facts0 t
  funext j
  obtain ⟨u, r, e, rfl⟩ : ∃ (u : Fin 1) (r : Fin 1024) (e : Fin 1024), j = ix3 u r e := ⟨j 0, j 1, j 2, eq_ix3 j⟩
  obtain rfl : u = 0 := Subsingleton.elim _ _
  show out0_2 (iblk0 (V1 m ρ) c 0 t) (iblk0 (V1 m ρ) c 1 t) (ix3 0 r e)
    = Cert.Attn.proj (argX m c) (argQK m c) ((((cfg0.win 2).blk t).view.emb (ix3 0 r e)) 0)
        ((((cfg0.win 2).blk t).view.emb (ix3 0 r e)) 1) ((((cfg0.win 2).blk t).view.emb (ix3 0 r e)) 2)
  rw [out0_2_apply]
  unfold Cert.Attn.proj
  refine Finset.sum_congr rfl fun d _ => ?_
  have hb0 : ((((cfg0.win 2).blk t).view.emb (ix3 0 r e)) 0).val = win0_2.index t (0 : Fin 3) * 1 + 1 * 0 := rfl
  have hb1 : ((((cfg0.win 2).blk t).view.emb (ix3 0 r e)) 1).val = win0_2.index t (1 : Fin 3) * 1024 + 1 * r.val := rfl
  have hb2 : ((((cfg0.win 2).blk t).view.emb (ix3 0 r e)) 2).val = win0_2.index t (2 : Fin 3) * 1024 + 1 * e.val := rfl
  rw [iblk0_0_apply (V1 m ρ) c t r d (ix3 ((((cfg0.win 2).blk t).view.emb (ix3 0 r e)) 0) ((((cfg0.win 2).blk t).view.emb (ix3 0 r e)) 1) d)
      (by show ((((cfg0.win 2).blk t).view.emb (ix3 0 r e)) 0).val = _; omega)
      (by show ((((cfg0.win 2).blk t).view.emb (ix3 0 r e)) 1).val = _; omega)
      (by show d.val = _; omega),
    iblk0_1_apply (V1 m ρ) c t d e (ix2 d ((((cfg0.win 2).blk t).view.emb (ix3 0 r e)) 2))
      (by show d.val = _; omega)
      (by show ((((cfg0.win 2).blk t).view.emb (ix3 0 r e)) 2).val = _; omega)]
  rw [V1_main_v0 m ρ c, V1_main_v1 m ρ c]

/-- An index of the array is in point `t`'s block iff each coordinate is in the block's range on its axis. -/
theorem mem_blk0 (t : Fin cfg0.N) (i : S4x4096x1024.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v3).slice (win0_2.rect t)).set ↔ _
  rw [View.set_slice_whole, Rect.mem_set_unit]
  exact Iff.rfl

/-- The output's blocks tile its array: index (b, s, e) is in the block of the point with block indices (b, s / 1024, 0). -/
theorem cover0 (i : S4x4096x1024.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 1024 := (i 2).isLt
  obtain ⟨t, ht⟩ := idx_onto0 ⟨(i 0).val, by omega⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- The projection region's output array after its run: row (b, t) of x times QK at every index. -/
theorem final0 (c : Dev nD) :
    (dat0 (V1 m ρ) c).arrAt 2 cfg0.N = fun i => Cert.Attn.proj (argX m c) (argQK m c) (i 0) (i 1) (i 2) :=
  (dat0 (V1 m ρ) c).arrAt_eq_of_cover 2 (Gproj m c) (fun t _ => flushed0_eq m ρ c t) cover0

/-! # What the attention region is entered from -/

/-- The projected queries, as the projection region left them; -/
theorem V2_main_v3 (c : Dev nD) :
    (V2 m ρ c main_v3 : Cert.Attn.Arr3) = fun i => Cert.Attn.proj (argX m c) (argQK m c) (i 0) (i 1) (i 2) :=
  (W2_arr m ρ c 2).trans (final0 m ρ c)

/-- the rounded activations, which the projection region only read; -/
theorem V2_main_v0 (c : Dev nD) : (V2 m ρ c main_v0 : Cert.Attn.Arr3) = argX m c :=
  (W2_arr m ρ c 0).trans (((dat0 (V1 m ρ) c).arrAt_in 0 rfl _).trans ((A_eq0 (V1 m ρ) c 0).trans (V1_main_v0 m ρ c)))

/-- and the rounded output weights, which it never touched. -/
theorem V2_main_v2 (c : Dev nD) : (V2 m ρ c main_v2 : Cert.Attn.Mat) = argVO m c :=
  (W2_of_ne m ρ c main_v2 (by decide)).trans (V1_main_v2 m ρ c)

end Cert.KernelIdeal.HandValue

end
-- ==== Proof.KI.Blocks1.lean ====
import proofs.«165870_j3324304687449_2_alg».proof.Proof.KI.R1.Runs
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! # Where the attention region's blocks sit in their arrays

The attention grid has 4 × 8 × 4 points; point `t` has batch `t / 32`, query block `t / 4 % 8` and key block `t % 4`.
The query window and the output window hold rows `512 · (t / 4 % 8) …` of that batch, the key window rows
`1024 · (t % 4) …` of it, the weight window the whole matrix. -/

/-- The printed index maps, decided over the grid. -/
theorem idx_facts1 : ∀ t : Fin cfg1.N,
    win1_0.index t (0 : Fin 3) = t.val / 32 ∧ win1_0.index t (1 : Fin 3) = t.val / 4 % 8 ∧ win1_0.index t (2 : Fin 3) = 0
    ∧ win1_1.index t (0 : Fin 3) = t.val / 32 ∧ win1_1.index t (1 : Fin 3) = t.val % 4 ∧ win1_1.index t (2 : Fin 3) = 0
    ∧ win1_2.index t (0 : Fin 2) = 0 ∧ win1_2.index t (1 : Fin 2) = 0
    ∧ win1_3.index t (0 : Fin 3) = t.val / 32 ∧ win1_3.index t (1 : Fin 3) = t.val / 4 % 8 ∧ win1_3.index t (2 : Fin 3) = 0 :=
  (by decide +kernel : ∀ t : Fin grid1.N, _)

/-- A point of the attention grid is below 128. -/
theorem lt_128 (t : Fin cfg1.N) : t.val < 128 := by
  have h : t.val < grid1.N := t.isLt
  rw [N_1] at h; exact h

/-- The batch of point `t`, -/
abbrev pB (t : Fin cfg1.N) : Fin 4 := ⟨t.val / 32, by have := lt_128 t; omega⟩
/-- its query block, -/
abbrev pQ (t : Fin cfg1.N) : Fin 8 := ⟨t.val / 4 % 8, by omega⟩
/-- its key block, -/
abbrev pK (t : Fin cfg1.N) : Fin 4 := ⟨t.val % 4, by omega⟩
/-- the array row of row `r` of its query block, -/
abbrev qRow (t : Fin cfg1.N) (r : Fin 512) : Fin 4096 := ⟨512 * (t.val / 4 % 8) + r.val, by have := r.isLt; omega⟩
/-- and the array row of row `u` of its key block. -/
abbrev kRow (t : Fin cfg1.N) (u : Fin 1024) : Fin 4096 := ⟨1024 * (t.val % 4) + u.val, by have := u.isLt; omega⟩

variable {F : FTy → Type} [FloatOps F]
variable (V : (c : Dev nD) → (b : Ref sig .tc) → Buf (Elt F) ((c : Thread nD τ).loc b))

/-- The query window's block at point `t`, read at row `r` and column `e`. -/
theorem iblk1_0_apply (c : Dev nD) (t : Fin cfg1.N) (r : Fin 512) (e : Fin 1024) :
    iblk1 V c 0 t (ix3 0 r e) = V c main_v3 (ix3 (pB t) (qRow t r) e) := by
  obtain ⟨e0, e1, e2, -⟩ := idx_facts1 t
  show V c main_v3 (((cfg1.win 0).blk t).view.emb (ix3 0 r e)) = V c main_v3 _
  refine congrArg _ (funext fun a => Fin.ext ?_)
  match a with
  | ⟨0, _⟩ => show win1_0.index t (0 : Fin 3) * 1 + 1 * 0 = t.val / 32; omega
  | ⟨1, _⟩ => show win1_0.index t (1 : Fin 3) * 512 + 1 * r.val = 512 * (t.val / 4 % 8) + r.val; omega
  | ⟨2, _⟩ => show win1_0.index t (2 : Fin 3) * 1024 + 1 * e.val = e.val; omega

/-- The key window's block at point `t`, read at row `u` and column `e`. -/
theorem iblk1_1_apply (c : Dev nD) (t : Fin cfg1.N) (u : Fin 1024) (e : Fin 1024) :
    iblk1 V c 1 t (ix3 0 u e) = V c main_v0 (ix3 (pB t) (kRow t u) e) := by
  obtain ⟨-, -, -, e0, e1, e2, -⟩ := idx_facts1 t
  show V c main_v0 (((cfg1.win 1).blk t).view.emb (ix3 0 u e)) = V c main_v0 _
  refine congrArg _ (funext fun a => Fin.ext ?_)
  match a with
  | ⟨0, _⟩ => show win1_1.index t (0 : Fin 3) * 1 + 1 * 0 = t.val / 32; omega
  | ⟨1, _⟩ => show win1_1.index t (1 : Fin 3) * 1024 + 1 * u.val = 1024 * (t.val % 4) + u.val; omega
  | ⟨2, _⟩ => show win1_1.index t (2 : Fin 3) * 1024 + 1 * e.val = e.val; omega

/-- The weight window's block at any point is the whole matrix. -/
theorem iblk1_2_apply (c : Dev nD) (t : Fin cfg1.N) (d e : Fin 1024) :
    iblk1 V c 2 t (ix2 d e) = V c main_v2 (ix2 d e) := by
  obtain ⟨-, -, -, -, -, -, e0, e1, -⟩ := idx_facts1 t
  show V c main_v2 (((cfg1.win 2).blk t).view.emb (ix2 d e)) = V c main_v2 _
  refine congrArg _ (funext fun a => Fin.ext ?_)
  match a with
  | ⟨0, _⟩ => show win1_2.index t (0 : Fin 2) * 1024 + 1 * d.val = d.val; omega
  | ⟨1, _⟩ => show win1_2.index t (1 : Fin 2) * 1024 + 1 * e.val = e.val; omega

/-- Row `r`, column `e` of the output window's block at point `t` sits in the result array where the query block's does. -/
theorem oblk1_emb (t : Fin cfg1.N) (r : Fin 512) (e : Fin 1024) :
    ((cfg1.win 3).blk t).view.emb (ix3 0 r e) = ix3 (pB t) (qRow t r) e := by
  obtain ⟨-, -, -, -, -, -, -, -, e0, e1, e2⟩ := idx_facts1 t
  refine funext fun a => Fin.ext ?_
  match a with
  | ⟨0, _⟩ => show win1_3.index t (0 : Fin 3) * 1 + 1 * 0 = t.val / 32; omega
  | ⟨1, _⟩ => show win1_3.index t (1 : Fin 3) * 512 + 1 * r.val = 512 * (t.val / 4 % 8) + r.val; omega
  | ⟨2, _⟩ => show win1_3.index t (2 : Fin 3) * 1024 + 1 * e.val = e.val; omega

/-! ## The same reads at any index with the block's coordinates -/

theorem iblk1_0_at (c : Dev nD) (t : Fin cfg1.N) (r : Fin 512) (e : Fin 1024) (i : S4x4096x1024.Idx)
    (h0 : (i 0).val = t.val / 32) (h1 : (i 1).val = 512 * ((t.val / 4) % 8) + r.val) (h2 : (i 2).val = e.val) :
    iblk1 V c 0 t (ix3 0 r e) = V c main_v3 i :=
  (iblk1_0_apply V c t r e).trans (congrArg _ (funext fun a => Fin.ext (by
    match a with
    | ⟨0, _⟩ => exact h0.symm
    | ⟨1, _⟩ => exact h1.symm
    | ⟨2, _⟩ => exact h2.symm)))

theorem iblk1_1_at (c : Dev nD) (t : Fin cfg1.N) (u : Fin 1024) (e : Fin 1024) (i : S4x4096x1024.Idx)
    (h0 : (i 0).val = t.val / 32) (h1 : (i 1).val = 1024 * (t.val % 4) + u.val) (h2 : (i 2).val = e.val) :
    iblk1 V c 1 t (ix3 0 u e) = V c main_v0 i :=
  (iblk1_1_apply V c t u e).trans (congrArg _ (funext fun a => Fin.ext (by
    match a with
    | ⟨0, _⟩ => exact h0.symm
    | ⟨1, _⟩ => exact h1.symm
    | ⟨2, _⟩ => exact h2.symm)))

theorem iblk1_2_at (c : Dev nD) (t : Fin cfg1.N) (d e : Fin 1024) (i : S1024x1024.Idx)
    (h0 : (i 0).val = d.val) (h1 : (i 1).val = e.val) :
    iblk1 V c 2 t (ix2 d e) = V c main_v2 i :=
  (iblk1_2_apply V c t d e).trans (congrArg _ (funext fun a => Fin.ext (by
    match a with
    | ⟨0, _⟩ => exact h0.symm
    | ⟨1, _⟩ => exact h1.symm)))

end Cert.KernelIdeal.HandValue

end
-- ==== Proof.KI.Final1.lean ====
import proofs.«165870_j3324304687449_2_alg».proof.Proof.KI.R1
import proofs.«165870_j3324304687449_2_alg».proof.Proof.KI.Blocks1
import proofs.«165870_j3324304687449_2_alg».proof.Proof.Spec
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! # The attention region's output array from its written-back blocks

The output window is written back at the last key block of each query block (`t % 4 = 3`); those points' blocks
tile the result array. So if every such point leaves, at row `r` and column `e` of its block, the value of one
whole-array function at the array index those coordinates sit at, the array ends holding that function. -/

/-- Every block of the result array is the block of some point that writes back. -/
theorem idx_onto1 : ∀ (q0 : Fin 4) (q1 : Fin 8), ∃ t : Fin cfg1.N, t.val % 4 = 3 ∧ win1_3.index t = ![q0.val, q1.val, 0] :=
  (by decide +kernel : ∀ (q0 : Fin 4) (q1 : Fin 8), ∃ t : Fin grid1.N, t.val % 4 = 3 ∧ win1_3.index t = ![q0.val, q1.val, 0])

/-- An index of the array is in point `t`'s block iff each coordinate is in the block's range on its axis. -/
theorem mem_blk1 (t : Fin cfg1.N) (i : S4x4096x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v4).slice (win1_3.rect t)).set ↔ _
  rw [View.set_slice_whole, Rect.mem_set_unit]
  exact Iff.rfl

/-- The written-back blocks tile the result array: index (b, s, e) is in the block of the writing point with block
    indices (b, s / 512, 0). -/
theorem cover1 (i : S4x4096x1024.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 1024 := (i 2).isLt
  obtain ⟨t, h3, ht⟩ := idx_onto1 ⟨(i 0).val, by omega⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, (flush1_3 t).mpr h3, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

variable (V : (c : Dev nD) → (b : Ref sig .tc) → Buf (Elt Ideal) ((c : Thread nD τ).loc b))

/-- What a writing point writes back is its block of `Gf`, when its rows are `Gf`'s. -/
theorem flushed1_eq_of_rows (c : Dev nD) (Gf : Cert.Attn.Arr3)
    (hrows : ∀ (t : Fin cfg1.N), t.val % 4 = 3 → ∀ (r : Fin 512) (e : Fin 1024) (i : S4x4096x1024.Idx),
      (i 0).val = t.val / 32 → (i 1).val = 512 * ((t.val / 4) % 8) + r.val → (i 2).val = e.val →
      (outsAt1 V c t.val t.isLt).1 (ix3 (0 : Fin 1) r e) = Gf i)
    (t : Fin cfg1.N) (hf : (cfg1.win 3).flush t = true) :
    (dat1 V c).flushed 3 t = ((cfg1.win 3).blk t).view.read (Elt Ideal) Gf := by
  have h3 : t.val % 4 = 3 := (flush1_3 t).mp hf
  show (cfg1.win 3).cut (grid1.coords t) ((dat1 V c).after 3 t) = _
  rw [after1_3]
  funext j
  obtain ⟨u, r, e, rfl⟩ : ∃ (u : Fin 1) (r : Fin 512) (e : Fin 1024), j = ix3 u r e := ⟨j 0, j 1, j 2, eq_ix3 j⟩
  obtain rfl : u = 0 := Subsingleton.elim _ _
  show (outsAt1 V c t.val t.isLt).1 (ix3 0 r e) = Gf (((cfg1.win 3).blk t).view.emb (ix3 0 r e))
  rw [oblk1_emb]
  exact hrows t h3 r e _ rfl rfl rfl

/-- The result array after the attention region's run is `Gf`, when every writing point's rows are `Gf`'s. -/
theorem final1_of_rows (c : Dev nD) (Gf : Cert.Attn.Arr3)
    (hrows : ∀ (t : Fin cfg1.N), t.val % 4 = 3 → ∀ (r : Fin 512) (e : Fin 1024) (i : S4x4096x1024.Idx),
      (i 0).val = t.val / 32 → (i 1).val = 512 * ((t.val / 4) % 8) + r.val → (i 2).val = e.val →
      (outsAt1 V c t.val t.isLt).1 (ix3 (0 : Fin 1) r e) = Gf i) :
    (dat1 V c).arrAt 3 cfg1.N = Gf :=
  (dat1 V c).arrAt_eq_of_cover 3 Gf (fun t hf => flushed1_eq_of_rows V c Gf hrows t hf) cover1

end Cert.KernelIdeal.HandValue

end
-- ==== Proof.Finite.lean ====
/-
  Finiteness of the inputs: the precondition says that every entry of the three argument arrays has an
  absolute value below +∞; on the extended reals such an entry is a real number.
-/
import proofs.«165870_j3324304687449_2_alg».proof.Defs
import proofs.«165870_j3324304687449_2_alg».proof.Proof.Gen.Pre_finite_inputs
import proofs.«165870_j3324304687449_2_alg».proof.Proof.AttnConsts
import proofs.«165870_j3324304687449_2_alg».proof.Proof.Spec
import Idealize.ShloMosaic.Lib.ReduceAll
import Idealize.ShloMosaic.Lib.ValueIdx
import Idealize.ShloMosaic.Lib.Pipeline.Value
import Idealize.ShloMosaic.PureOps.Ideal.Laws

noncomputable section

namespace Cert.Attn.Finite

open Idealize.ShloMosaic Idealize.ShloMosaic.TcCoe Idealize.SL.Sem Idealize.ShloMosaic.StableHlo

/-- An extended real whose absolute value compares below +∞ is a real. -/
theorem real_of_abs_lt (x : EReal)
    (h : Ideal.cmp .olt (max x (-x)) (Ideal.ofBits .f32 0x7F800000#32) = 1#1) : ∃ r : ℝ, x = (r : EReal) := by
  rw [Cert.Attn.Consts.posInf] at h
  induction x using EReal.rec with
  | bot => simp [Ideal.cmp] at h
  | top => simp [Ideal.cmp] at h
  | coe r => exact ⟨r, rfl⟩

instance : Subsingleton Cert.Pre_finite_inputs.S_.Idx := ⟨fun a b => funext fun d => d.elim0⟩

/-- One array: if the conjunction over all its entries of |a i| < +∞ is 1, every entry is a real. -/
theorem all_real {s : Shape} {axes : List (Fin s.rank)} (a : FVec Ideal s .f32)
    (bc : Cert.Pre_finite_inputs.S_.BroadcastsInDim s (![] : Fin 0 → Fin s.rank))
    (h' : s.ReducesTo axes Cert.Pre_finite_inputs.S_) (hu : 0 < Cert.Pre_finite_inputs.S_.numel)
    (init : IVec Cert.Pre_finite_inputs.S_ 1)
    (e : Host.reduce IntOp.andi
        (cmpf .olt (Host.absf a) (broadcastInDim s ![] bc (constant (F := Ideal) Cert.Pre_finite_inputs.S_ .f32 0x7F800000#32)))
        init h' hu ValueIdx.ix0 = 1#1)
    (i : s.Idx) : ∃ r : ℝ, a i = (r : EReal) := by
  have hi := Host.reduce_andi_all _ init h' hu _ e i
  have hb : broadcastInDim s ![] bc (constant (F := Ideal) Cert.Pre_finite_inputs.S_ .f32 0x7F800000#32) i
      = Ideal.ofBits .f32 0x7F800000#32 :=
    broadcastInDim_apply _ bc _ i ValueIdx.ix0 (fun a => a.elim0)
  rw [ValueIdx.cmpf_apply, hb] at hi
  exact real_of_abs_lt _ hi

/-- The printed predicate all ones: every entry of the three arrays is a real. -/
theorem real_of_fn [Cert.Pre_finite_inputs.Facts]
    (a0 : FVec Ideal Cert.Pre_finite_inputs.S4x4096x1024 .f32) (a1 a2 : FVec Ideal Cert.Pre_finite_inputs.S1024x1024 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨all_real a0 _ _ _ _ h0', all_real a1 _ _ _ _ h1, all_real a2 _ _ _ _ h2⟩

/-- From the kernel's precondition: on every device the three argument arrays hold reals. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0)
        : FVec Ideal Cert.Pre_finite_inputs.S4x4096x1024 .f32) i = (r : EReal))
    ∧ (∀ i, ∃ r : ℝ, (m ((c.tc : Thread Cert.KernelIdeal.nD Cert.KernelIdeal.τ).loc Cert.KernelIdeal.main_arg1)
        : FVec Ideal Cert.Pre_finite_inputs.S1024x1024 .f32) i = (r : EReal))
    ∧ (∀ i, ∃ r : ℝ, (m ((c.tc : Thread Cert.KernelIdeal.nD Cert.KernelIdeal.τ).loc Cert.KernelIdeal.main_arg2)
        : FVec Ideal Cert.Pre_finite_inputs.S1024x1024 .f32) i = (r : EReal)) :=
  real_of_fn _ _ _ (h c)

/-- The three argument arrays as chosen families of reals, by coordinates. -/
theorem exists_reals [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ (xr : Fin 4 → Fin 4096 → Fin 1024 → ℝ) (QKr VOr : Fin 1024 → Fin 1024 → ℝ),
      (∀ b t d, (m ((c.tc : Thread Cert.KernelIdeal.nD Cert.KernelIdeal.τ).loc Cert.KernelIdeal.main_arg0) : Cert.Attn.Arr3)
          (ValueIdx.ix3 b t d) = ((xr b t d : ℝ) : EReal))
      ∧ (∀ d e, (m ((c.tc : Thread Cert.KernelIdeal.nD Cert.KernelIdeal.τ).loc Cert.KernelIdeal.main_arg1) : Cert.Attn.Mat)
          (ValueIdx.ix2 d e) = ((QKr d e : ℝ) : EReal))
      ∧ (∀ d e, (m ((c.tc : Thread Cert.KernelIdeal.nD Cert.KernelIdeal.τ).loc Cert.KernelIdeal.main_arg2) : Cert.Attn.Mat)
          (ValueIdx.ix2 d e) = ((VOr d e : ℝ) : EReal)) := by
  obtain ⟨h0, h1, h2⟩ := real_of_pre m h c
  choose f0 hf0 using h0
  choose f1 hf1 using h1
  choose f2 hf2 using h2
  exact ⟨fun b t d => f0 (ValueIdx.ix3 b t d), fun d e => f1 (ValueIdx.ix2 d e), fun d e => f2 (ValueIdx.ix2 d e),
    fun b t d => hf0 _, fun d e => hf1 _, fun d e => hf2 _⟩

end Cert.Attn.Finite

end
-- ==== Proof.SpecReal.lean ====
/-
  The specification on real inputs. When every entry of x, QK and VO is a real, every stage of G is a real:
  the scores are real, the row maximum is attained, the normaliser is positive, and G's entry is the
  softmax-weighted average of x's rows contracted with VO, computed in ℝ.
-/
import proofs.«165870_j3324304687449_2_alg».proof.Proof.Spec
import proofs.«165870_j3324304687449_2_alg».proof.Proof.Softmax
import proofs.«165870_j3324304687449_2_alg».proof.Proof.AttnConsts

noncomputable section

open scoped BigOperators

namespace Cert.Attn

open Idealize.ShloMosaic Idealize.ShloMosaic.ValueIdx

/-- The coercion from ℝ commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The supremum of a nonempty finite family of reals, coerced, is the supremum of the coerced family. -/
theorem sup'_coe {ι : Type} [Fintype ι] [Nonempty ι] (S : ι → ℝ) :
    Finset.univ.sup' Finset.univ_nonempty (fun u => (S u : EReal))
      = ((Finset.univ.sup' Finset.univ_nonempty S : ℝ) : EReal) := by
  apply le_antisymm
  · exact Finset.sup'_le _ _ fun u _ => EReal.coe_le_coe_iff.2 (Finset.le_sup' S (Finset.mem_univ u))
  · obtain ⟨u0, _, hu0⟩ := Finset.exists_mem_eq_sup' Finset.univ_nonempty S
    rw [hu0]
    exact Finset.le_sup' (fun u => (S u : EReal)) (Finset.mem_univ u0)

/-- The projected query over ℝ. -/
def projR (xr : Fin 4 → Fin 4096 → Fin 1024 → ℝ) (QKr : Fin 1024 → Fin 1024 → ℝ)
    (b : Fin 4) (t : Fin 4096) (e : Fin 1024) : ℝ :=
  ∑ d : Fin 1024, xr b t d * QKr d e

/-- The score over ℝ: the contraction times 1/32. -/
def scoreR (xr : Fin 4 → Fin 4096 → Fin 1024 → ℝ) (QKr : Fin 1024 → Fin 1024 → ℝ)
    (b : Fin 4) (t u : Fin 4096) : ℝ :=
  (∑ e : Fin 1024, projR xr QKr b t e * xr b u e) * (1 / 32)

/-- The result over ℝ: for each d the softmax-weighted average of x[b, ·, d] under row t's scores, against VO. -/
def GatR (xr : Fin 4 → Fin 4096 → Fin 1024 → ℝ) (QKr VOr : Fin 1024 → Fin 1024 → ℝ)
    (b : Fin 4) (t : Fin 4096) (e : Fin 1024) : ℝ :=
  ∑ d : Fin 1024, Online.avg (scoreR xr QKr b t) (fun u => xr b u d) * VOr d e

section
variable (x : Arr3) (QK VO : Mat) (xr : Fin 4 → Fin 4096 → Fin 1024 → ℝ) (QKr VOr : Fin 1024 → Fin 1024 → ℝ)
  (hx : ∀ b t d, x (ix3 b t d) = ((xr b t d : ℝ) : EReal))
  (hQK : ∀ d e, QK (ix2 d e) = ((QKr d e : ℝ) : EReal))
  (hVO : ∀ d e, VO (ix2 d e) = ((VOr d e : ℝ) : EReal))
include hx hQK

theorem proj_real (b : Fin 4) (t : Fin 4096) (e : Fin 1024) :
    proj x QK b t e = ((projR xr QKr b t e : ℝ) : EReal) := by
  unfold proj projR
  rw [coe_sum]
  refine Finset.sum_congr rfl fun d _ => ?_
  rw [hx, hQK, EReal.coe_mul]

theorem score_real (b : Fin 4) (t u : Fin 4096) :
    score x QK b t u = ((scoreR xr QKr b t u : ℝ) : EReal) := by
  unfold score scoreR
  rw [Consts.c32, Ideal.div_coe (by norm_num : (32 : ℝ) ≠ 0), EReal.coe_mul, coe_sum]
  congr 1
  refine Finset.sum_congr rfl fun e _ => ?_
  rw [proj_real x QK xr QKr hx hQK, hx, EReal.coe_mul]

theorem rowmax_real (b : Fin 4) (t : Fin 4096) :
    rowmax x QK b t = ((Online.gmax (scoreR xr QKr b t) : ℝ) : EReal) := by
  unfold rowmax Online.gmax
  rw [← sup'_coe]
  congr 1
  funext u
  exact score_real x QK xr QKr hx hQK b t u

theorem expw_real (b : Fin 4) (t u : Fin 4096) :
    expw x QK b t u = ((Real.exp (scoreR xr QKr b t u - Online.gmax (scoreR xr QKr b t)) : ℝ) : EReal) := by
  unfold expw
  rw [score_real x QK xr QKr hx hQK, rowmax_real x QK xr QKr hx hQK, ← EReal.coe_sub, Ideal.exp_coe]

theorem denom_real (b : Fin 4) (t : Fin 4096) :
    denom x QK b t = ((Online.Z (scoreR xr QKr b t) : ℝ) : EReal) := by
  unfold denom Online.Z
  rw [coe_sum]
  refine Finset.sum_congr rfl fun u _ => ?_
  exact expw_real x QK xr QKr hx hQK b t u

theorem attn_real (b : Fin 4) (t u : Fin 4096) :
    attn x QK b t u
      = ((Real.exp (scoreR xr QKr b t u - Online.gmax (scoreR xr QKr b t)) / Online.Z (scoreR xr QKr b t) : ℝ) : EReal) := by
  unfold attn
  rw [expw_real x QK xr QKr hx hQK, denom_real x QK xr QKr hx hQK,
    Ideal.div_coe (ne_of_gt (Online.Z_pos _)), ← EReal.coe_mul, mul_one_div]

theorem av_real (b : Fin 4) (t : Fin 4096) (d : Fin 1024) :
    av x QK b t d = ((Online.avg (scoreR xr QKr b t) (fun u => xr b u d) : ℝ) : EReal) := by
  unfold av Online.avg
  rw [coe_sum]
  refine Finset.sum_congr rfl fun u _ => ?_
  rw [attn_real x QK xr QKr hx hQK, hx, EReal.coe_mul]

include hVO

/-- On real inputs G's entry is the real GatR. -/
theorem Gat_real (b : Fin 4) (t : Fin 4096) (e : Fin 1024) :
    Gat x QK VO b t e = ((GatR xr QKr VOr b t e : ℝ) : EReal) := by
  unfold Gat GatR
  rw [coe_sum]
  refine Finset.sum_congr rfl fun d _ => ?_
  rw [av_real x QK xr QKr hx hQK, hVO, EReal.coe_mul]

end

end Cert.Attn

end
-- ==== Proof.OnlineSpec.lean ====
/-
  The four key blocks of 1024 rows tile the 4096 keys, and with them the real specification GatR is what the
  online recurrence leaves: per d, the final weighted sum times the reciprocal of the final normaliser.
-/
import proofs.«165870_j3324304687449_2_alg».proof.Proof.SpecReal

noncomputable section

open scoped BigOperators
open Finset

namespace Cert.Attn

open Cert.Attn.Online

/-- After four blocks the normaliser is a sum of exponentials over a nonempty set of keys: positive. -/
theorem st3_l_pos {κ : Type} [Fintype κ] [Nonempty κ] (s v : Fin 4 → κ → ℝ) : 0 < (st3 s v).l := by
  rw [(st3_inv s v).2.1]
  exact Finset.sum_pos (fun a _ => Real.exp_pos _) univ_nonempty

theorem st3_l_ne_zero {κ : Type} [Fintype κ] [Nonempty κ] (s v : Fin 4 → κ → ℝ) : (st3 s v).l ≠ 0 :=
  ne_of_gt (st3_l_pos s v)

/-- Key block i and row u inside it are key row i · 1024 + u. -/
def keyBlocks : Fin 4 × Fin 1024 ≃ Fin 4096 where
  toFun q := ⟨q.1.val * 1024 + q.2.val, by have := q.1.isLt; have := q.2.isLt; omega⟩
  invFun a := (⟨a.val / 1024, by have := a.isLt; omega⟩, ⟨a.val % 1024, Nat.mod_lt _ (by norm_num)⟩)
  left_inv := by
    rintro ⟨i, u⟩
    refine Prod.ext (Fin.ext ?_) (Fin.ext ?_)
    · show (i.val * 1024 + u.val) / 1024 = i.val
      have := u.isLt; omega
    · show (i.val * 1024 + u.val) % 1024 = u.val
      have := u.isLt; omega
  right_inv := by
    intro a
    apply Fin.ext
    show a.val / 1024 * 1024 + a.val % 1024 = a.val
    omega

theorem keyBlocks_val (i : Fin 4) (u : Fin 1024) : (keyBlocks (i, u)).val = i.val * 1024 + u.val := rfl

section
variable (xr : Fin 4 → Fin 4096 → Fin 1024 → ℝ) (QKr VOr : Fin 1024 → Fin 1024 → ℝ)
  (b : Fin 4) (t : Fin 4096)

/-- For row (b, t) and column d the recurrence over the four key blocks ends at the global maximum … -/
theorem st3_m_eq (d : Fin 1024) :
    (st3 (fun i u => scoreR xr QKr b t (keyBlocks (i, u))) (fun i u => xr b (keyBlocks (i, u)) d)).m
      = gmax (scoreR xr QKr b t) :=
  (online_softmax keyBlocks (scoreR xr QKr b t) (fun u => xr b u d)).1

/-- … at the softmax normaliser … -/
theorem st3_l_eq (d : Fin 1024) :
    (st3 (fun i u => scoreR xr QKr b t (keyBlocks (i, u))) (fun i u => xr b (keyBlocks (i, u)) d)).l
      = Z (scoreR xr QKr b t) :=
  (online_softmax keyBlocks (scoreR xr QKr b t) (fun u => xr b u d)).2.1

/-- … and its weighted sum over its normaliser is the softmax-weighted average of column d. -/
theorem st3_avg_eq (d : Fin 1024) :
    (st3 (fun i u => scoreR xr QKr b t (keyBlocks (i, u))) (fun i u => xr b (keyBlocks (i, u)) d)).acc
        * (1 / (st3 (fun i u => scoreR xr QKr b t (keyBlocks (i, u))) (fun i u => xr b (keyBlocks (i, u)) d)).l)
      = avg (scoreR xr QKr b t) (fun u => xr b u d) :=
  (online_softmax keyBlocks (scoreR xr QKr b t) (fun u => xr b u d)).2.2

/-- The real specification is the online recurrence's result contracted with VO. -/
theorem GatR_online (e : Fin 1024) :
    GatR xr QKr VOr b t e
      = ∑ d : Fin 1024,
          ((st3 (fun i u => scoreR xr QKr b t (keyBlocks (i, u))) (fun i u => xr b (keyBlocks (i, u)) d)).acc
            * (1 / (st3 (fun i u => scoreR xr QKr b t (keyBlocks (i, u))) (fun i u => xr b (keyBlocks (i, u)) d)).l))
          * VOr d e := by
  unfold GatR
  refine Finset.sum_congr rfl fun d _ => ?_
  rw [st3_avg_eq]

end

end Cert.Attn

end
-- ==== Proof.KI.Value.lean ====
/-
  The result array of the idealized kernel's run is the specification's function of the three arguments. The attention
  region writes its output only at a query tile's last key block; there row `r` of the block is the online-softmax
  output row of the tile's 512·qi + r-th query row (the four key blocks of 1024 rows being the 4096 key rows in
  order), which is the plain softmax row by the online-softmax identity, and the blocks tile the array. Every entry
  is real because the three arguments are finite; the projected query rows the attention region reads are what the
  projection region wrote.
-/
import proofs.«165870_j3324304687449_2_alg».proof.Proof.KI.Rows
import proofs.«165870_j3324304687449_2_alg».proof.Proof.KI.Final0
import proofs.«165870_j3324304687449_2_alg».proof.Proof.KI.Final1
import proofs.«165870_j3324304687449_2_alg».proof.Proof.Finite
import proofs.«165870_j3324304687449_2_alg».proof.Proof.SpecReal
import proofs.«165870_j3324304687449_2_alg».proof.Proof.OnlineSpec
import proofs.«165870_j3324304687449_2_alg».proof.Proof.Gen.Pre_finite_inputs

set_option maxRecDepth 16384

noncomputable section

namespace Cert.KernelIdeal.HandValue

open Idealize.ShloMosaic Idealize.ShloMosaic.TcCoe Idealize.ShloMosaic.ValueIdx
open Idealize.SL.Sem
open Cert.KernelIdeal Cert.KernelIdeal.Gen Cert.KernelIdeal.Hand
open Cert.Attn Cert.Attn.Online

variable (m : (ℓ : Loc nD τ sig) → Buf (Elt Ideal) ℓ) (ρ : Dev nD → PrngReg)

/-- One row of one output block: position `n + 3` is a query tile's last key block. -/
theorem tile_row (c : Dev nD) (xr : Fin 4 → Fin 4096 → Fin 1024 → ℝ) (QKr VOr : Fin 1024 → Fin 1024 → ℝ)
    (hx : ∀ b t d, (argX m c) (ix3 b t d) = ((xr b t d : ℝ) : EReal))
    (hQK : ∀ d e, (argQK m c) (ix2 d e) = ((QKr d e : ℝ) : EReal))
    (hVO : ∀ d e, (argVO m c) (ix2 d e) = ((VOr d e : ℝ) : EReal))
    (n : ℕ) (hn : n + 3 < cfg1.N) (hmod : n % 4 = 0) (r : Fin 512) (e : Fin 1024) :
    (outsAt1 (V2 (F := Ideal) m ρ) c (n + 3) hn).1 (ix3 (0 : Fin 1) r e)
      = ((GatR xr QKr VOr (pB ⟨n + 3, hn⟩) (qRow ⟨n + 3, hn⟩ r) e : ℝ) : EReal) := by
  have hN : n + 3 < 128 := lt_of_lt_of_eq hn (show cfg1.N = 128 from N_1)
  refine (row_out (V2 m ρ) c n hn hmod r
    (fun e' => projR xr QKr (pB ⟨n + 3, hn⟩) (qRow ⟨n + 3, hn⟩ r) e')
    (fun j u e' => xr (pB ⟨n + 3, hn⟩) (keyBlocks (j, u)) e') ?hq ?hk VOr ?hvo ?hl e).trans ?_
  case hq =>
    intro j hj e'
    rw [iblk1_0_at (V2 m ρ) c ⟨n + j, by omega⟩ r e' (ix3 (pB ⟨n + 3, hn⟩) (qRow ⟨n + 3, hn⟩ r) e')
      (by show (n + 3) / 32 = (n + j) / 32; omega) (by show 512 * ((n + 3) / 4 % 8) + r.val = 512 * ((n + j) / 4 % 8) + r.val; omega) rfl]
    rw [V2_main_v3 m ρ c]
    exact proj_real _ _ xr QKr hx hQK _ _ _
  case hk =>
    intro j hj u e'
    rw [iblk1_1_at (V2 m ρ) c ⟨n + j, by omega⟩ u e' (ix3 (pB ⟨n + 3, hn⟩) (keyBlocks (⟨j, hj⟩, u)) e')
      (by show (n + 3) / 32 = (n + j) / 32; omega)
      (by show (keyBlocks (⟨j, hj⟩, u)).val = 1024 * ((n + j) % 4) + u.val; rw [keyBlocks_val]; show j * 1024 + u.val = _; omega) rfl]
    rw [V2_main_v0 m ρ c]
    exact hx _ _ _
  case hvo =>
    intro d e'
    rw [iblk1_2_apply (V2 m ρ) c ⟨n + 3, hn⟩ d e', V2_main_v2 m ρ c]
    exact hVO d e'
  case hl => exact fun d => st3_l_ne_zero _ _
  rw [GatR_online]
  rfl

/-- THE VALUE: the result array after the run is the specification's function of the arguments. -/
theorem value (hpre : Cert.Pre_KernelIdeal m) (c : Dev nD) :
    (dat1 (V2 (F := Ideal) m ρ) c).arrAt 3 cfg1.N = Cert.Attn.G (argX m c) (argQK m c) (argVO m c) := by
  obtain ⟨xr, QKr, VOr, hx, hQK, hVO⟩ := Cert.Attn.Finite.exists_reals m hpre c
  refine final1_of_rows (V2 m ρ) c _ fun t ht r e i h0 h1 h2 => ?_
  obtain ⟨tv, htv⟩ := t
  obtain ⟨n, rfl⟩ : ∃ n, tv = n + 3 := ⟨tv - 3, by have : tv % 4 = 3 := ht; omega⟩
  have hmod : n % 4 = 0 := by have : (n + 3) % 4 = 3 := ht; omega
  obtain rfl : i = ix3 (pB ⟨n + 3, htv⟩) (qRow ⟨n + 3, htv⟩ r) e := by
    funext a
    match a with
    | ⟨0, _⟩ => exact Fin.ext h0
    | ⟨1, _⟩ => exact Fin.ext h1
    | ⟨2, _⟩ => exact Fin.ext h2
  rw [G_ix3, Gat_real _ _ _ xr QKr VOr hx hQK hVO]
  exact tile_row m ρ c xr QKr VOr hx hQK hVO n htv hmod r e

end Cert.KernelIdeal.HandValue

end
-- ==== Proof.Algebraic.lean ====
/-
  The algebraic conjunct. From memories agreeing on the three arguments, the idealized kernel's run ends with its
  result array at the specification's function `G` of its arguments (the run of its three segments, then the value of
  the attention region's write-backs), and the idealized reference's run ends with its result at the same `G` of its
  own arguments (its operations read one at a time); the agreement makes the two the same array.
-/
import proofs.«165870_j3324304687449_2_alg».proof.Defs
import proofs.«165870_j3324304687449_2_alg».proof.Proof.KI.Value
import proofs.«165870_j3324304687449_2_alg».proof.Proof.RefIsG

noncomputable section

namespace Cert.Proof.Alg

open Idealize.ShloMosaic Idealize.SL.Sem

theorem algebraic : Cert.algebraic_KernelIdeal_ReferenceIdeal := by
  intro m ρ m' ρ' hpre hagree
  refine ⟨fun c => Cert.Attn.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.HandValue.value m ρ hpre c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.RefValue.ref_run_G m' ρ')
    rw [(hagree c).1, (hagree c).2.1, (hagree c).2.2]

end Cert.Proof.Alg

end
-- ==== Proof.lean ====
/-
  The proof of `Cert.Claim`: the kernel (a projection x·QK followed by an attention pass that keeps, per query row, a
  running maximum, denominator and numerator over four blocks of keys and finishes with one division and the output
  projection) against the reference softmax((x·QK·xᵀ)/32)·x·VO.
  The three frames: each kernel program runs as a host stretch and two pipelined regions, the attention region's
  invariant naming its three scratch buffers' contents point by point; the reference is a straight line of host
  operations. The idealization rewrote nothing. On the extended reals, with finite inputs, every quantity is real;
  the rescaled running sums are the plain softmax sums because exp (a − b) · exp (b − c) = exp (a − c) and the
  denominator is positive, a product with 2⁻⁵ is a quotient by 32, and the order and blocking of a finite sum do not
  matter: the two results are one function of the arguments.
-/
import proofs.«165870_j3324304687449_2_alg».proof.Defs
import proofs.«165870_j3324304687449_2_alg».proof.Proof.Gen.Kernel
import proofs.«165870_j3324304687449_2_alg».proof.Proof.Gen.KernelIdeal
import proofs.«165870_j3324304687449_2_alg».proof.Proof.Gen.ReferenceIdeal
import proofs.«165870_j3324304687449_2_alg».proof.Proof.Gen.Pre_finite_inputs
import proofs.«165870_j3324304687449_2_alg».proof.Proof.Gen.ReferenceIdeal.Read
import proofs.«165870_j3324304687449_2_alg».proof.Proof.Frames
import proofs.«165870_j3324304687449_2_alg».proof.Proof.RefIsG
import proofs.«165870_j3324304687449_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_p, Frames.frame_pi, Cert.ReferenceIdeal.RefValue.frame_ri, Cert.ReferenceIdeal.RefValue.preserves,
    Alg.algebraic⟩

end Cert.Proof

end
